-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x2048 : S_.BroadcastsInDim S1024x2048 (![] : Fin 0 → Fin S1024x2048.rank)
  reducesTo_S1024x2048_S_d0_1 : S1024x2048.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S2048x2048 .f32) (main_arg10 : FVec F S2048 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x2048 .f32) (main_arg8 : FVec F S1024 .f32) (main_arg9 : FVec F S2048x2048 .f32) (main_arg10 : FVec F S2048 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x2048 .f32) (main_arg8 : FVec F S1024 .f32) (main_arg9 : FVec F S2048x2048 .f32) (main_arg10 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S3072x2048 : Shape := ⟨2, ![3072, 2048]⟩
abbrev S2048x3072 : Shape := ⟨2, ![2048, 3072]⟩
abbrev S256x1024 : Shape := ⟨2, ![256, 1024]⟩
abbrev S1024x4096 : Shape := ⟨2, ![1024, 4096]⟩
abbrev S256x4096 : Shape := ⟨2, ![256, 4096]⟩
abbrev S256 : Shape := ⟨1, ![256]⟩
abbrev S256x1 : Shape := ⟨2, ![256, 1]⟩
abbrev S256x3072 : Shape := ⟨2, ![256, 3072]⟩

abbrev nBuf : Space → Nat
  | .hbm => 27
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S3072x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S1x3072, .f32⟩
  | .hbm, ⟨16, _⟩ => ⟨S4096x1024, .bf16⟩
  | .hbm, ⟨17, _⟩ => ⟨S4096x1024, .bf16⟩
  | .hbm, ⟨18, _⟩ => ⟨S4096x1024, .bf16⟩
  | .hbm, ⟨19, _⟩ => ⟨S3072x2048, .f32⟩
  | .hbm, ⟨20, _⟩ => ⟨S2048x3072, .f32⟩
  | .hbm, ⟨21, _⟩ => ⟨S2048x3072, .bf16⟩
  | .hbm, ⟨22, _⟩ => ⟨S1024x3072, .bf16⟩
  | .hbm, ⟨23, _⟩ => ⟨S1024x3072, .bf16⟩
  | .hbm, ⟨24, _⟩ => ⟨S3072, .f32⟩
  | .hbm, ⟨25, _⟩ => ⟨S1x3072, .f32⟩
  | .hbm, ⟨26, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1x3072, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S256x1024, .bf16⟩
  | .local _ .vmem, ⟨12, _⟩ => ⟨S4096x1024, .bf16⟩
  | .local _ .vmem, ⟨13, _⟩ => ⟨S4096x1024, .bf16⟩
  | .local _ .vmem, ⟨14, _⟩ => ⟨S1024x3072, .bf16⟩
  | .local _ .vmem, ⟨15, _⟩ => ⟨S1024x3072, .bf16⟩
  | .local _ .vmem, ⟨16, _⟩ => ⟨S1x3072, .f32⟩
  | .local _ .vmem, ⟨17, _⟩ => ⟨S256x1024, .f32⟩
  | .local _ .vmem, ⟨18, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x3072 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x3072 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3072 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S1024x1024_S1024x1024_0_0 : ∀ a, (![0, 0] : Fin 2 → Nat) a + S1024x1024.size a ≤ S1024x1024.size a
  h_S1024x1024 : 0 < S1024x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S1024x3072 : S1x3072.Broadcasts S1024x3072
  slices_S1024x3072_o0_0_S1024x1024 : S1024x3072.Slices ![0, 0] S1024x1024
  packedbf16_S1024x1024_S1024x1024_0_0 : (Rect.unit (s := S1024x1024) ![0, 0] S1024x1024.size inb_S1024x1024_S1024x1024_0_0).PackedRows (EltTy.packing .bf16)
  slices_S1024x3072_o0_1024_S1024x1024 : S1024x3072.Slices ![0, 1024] S1024x1024
  slices_S1024x3072_o0_2048_S1024x1024 : S1024x3072.Slices ![0, 2048] S1024x1024
  concatenates_S1024x2048_S2048x2048_S3072x2048_d0 : Shape.Concatenates [S1024x2048, S2048x2048] S3072x2048 0
  transposes_S3072x2048_S2048x3072_1_0 : S3072x2048.Transposes [1, 0] S2048x3072
  slices_S2048x3072_S1024x3072_0_0 : S2048x3072.Slices ![0, 0] S1024x3072
  slices_S2048x3072_S1024x3072_1024_0 : S2048x3072.Slices ![1024, 0] S1024x3072
  concatenates_S1024_S2048_S3072_d0 : Shape.Concatenates [S1024, S2048] S3072 0
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  transposes_S4096x1024_p1_0_S1024x4096 : S4096x1024.Transposes [1, 0] S1024x4096
  reduces_S256x4096_S256 : S256x4096.Reduces [1] S256
  shapeCasts_S256_S256x1 : S256.ShapeCasts S256x1
  broadcasts_S256x1_S256x4096 : S256x1.Broadcasts S256x4096
  broadcasts_S256x1_S256x1024 : S256x1.Broadcasts S256x1024
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S1024x1024_S1024x3072_S1024x3072_1_0_0_1_n_n_wf : DotDims.WF S1024x1024 S1024x3072 S1024x3072 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x1024.size a
  hwx0_4 : ∀ i : grid0.Coords, EltTy.bits .bf16 = 32 ∨ (Rect.block (s := S4096x1024) S1024x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x1024.size a
  hwx0_5 : ∀ i : grid0.Coords, EltTy.bits .bf16 = 32 ∨ (Rect.block (s := S4096x1024) S1024x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x3072.size a ≤ S1024x3072.size a
  hwx1_3 : ∀ i : grid1.Coords, EltTy.bits .bf16 = 32 ∨ (Rect.block (s := S1024x3072) S1024x3072.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x3072.size a ≤ S1024x3072.size a
  hwx1_4 : ∀ i : grid1.Coords, EltTy.bits .bf16 = 32 ∨ (Rect.block (s := S1024x3072) S1024x3072.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3072.size a ≤ S1x3072.size a
  hwx1_5 : ∀ i : grid1.Coords, EltTy.bits .f32 = 32 ∨ (Rect.block (s := S1x3072) S1x3072.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x1024.size a ≤ S4096x1024.size a
  hwx1_6 : ∀ i : grid1.Coords, EltTy.bits .f32 = 32 ∨ (Rect.block (s := S4096x1024) S256x1024.size (cc1_transform_6 i) (hinb1_6 i)).WholeWords (EltTy.packing .f32)

variable [Facts₀]

def dot_S1024x1024_S1024x3072_S1024x3072_1_0_0_1_n_n : DotDims S1024x1024 S1024x3072 S1024x3072 where
  lhsContracting := [1]
  rhsContracting := [0]
  lhsNonContracting := [0]
  rhsNonContracting := [1]
  lhsBatch := []
  rhsBatch := []
  wf := dot_S1024x1024_S1024x3072_S1024x3072_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v5_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1024x3072.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x3072.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1x3072.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v13) S256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S2048x1024 : Shape := ⟨2, ![2048, 1024]⟩
abbrev S1x2048 : Shape := ⟨2, ![1, 2048]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S2048x2048, .f32⟩
  | .hbm, ⟨10, _⟩ => ⟨S2048, .f32⟩
  | .hbm, ⟨11, _⟩ => ⟨S1024x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S1024x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x2048, .f32⟩
  | .hbm, ⟨47, _⟩ => ⟨S2048x1024, .f32⟩
  | .hbm, ⟨48, _⟩ => ⟨S4096x1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S2048x2048, .f32⟩
  | .hbm, ⟨53, _⟩ => ⟨S4096x2048, .f32⟩
  | .hbm, ⟨54, _⟩ => ⟨S1x2048, .f32⟩
  | .hbm, ⟨55, _⟩ => ⟨S4096x2048, .f32⟩
  | .hbm, ⟨56, _⟩ => ⟨S4096x2048, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_3 : Ref sig .tc := ⟨.hbm, 61, rfl⟩
abbrev main_v46 : Ref sig .tc := ⟨.hbm, 62, rfl⟩
abbrev main_v47 : Ref sig .tc := ⟨.hbm, 63, rfl⟩
abbrev main_cst_4 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  concatenates_S4096x1024_S4096x1024_S4096x2048_d1 : Shape.Concatenates [S4096x1024, S4096x1024] S4096x2048 1
  transposes_S1024x2048_S2048x1024_1_0 : S1024x2048.Transposes [1, 0] S2048x1024
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  slices_S4096x2048_S4096x1024_0_0 : S4096x2048.Slices ![0, 0] S4096x1024
  slices_S4096x2048_S4096x1024_0_1024 : S4096x2048.Slices ![0, 1024] S4096x1024
  bcast_S_S4096x1024 : S_.BroadcastsInDim S4096x1024 (![] : Fin 0 → Fin S4096x1024.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []
  dot_S4096x2048_S2048x1024_S4096x1024_1_0_0_1_n_n_wf : DotDims.WF S4096x2048 S2048x1024 S4096x1024 [1] [0] [0] [1] [] []
  dot_S4096x2048_S2048x2048_S4096x2048_1_0_0_1_n_n_wf : DotDims.WF S4096x2048 S2048x2048 S4096x2048 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.KB.Body0.lean ====
/-
  The first pallas_call's half of the frame, at any float instance and at a parameter `V`, the contents of the TensorCore's
  buffers when the region is entered. Each grid point t reads rows [1024 t, 1024 t + 1024) of the input array, the
  whole transposed weight matrix [Wq | Wk | Wv]ᵀ and the whole bias row, and writes the three column thirds of
  x·W + b as the blocks t of the three output arrays. What each output's staging buffer holds after the body is the one
  store's payload of the three blocks read; the body's triple is run symbolically over those payloads.
-/
import proofs.«169114_j74363063763252_2_alg».proof.Proof.Gen.Kernel.Launch
import proofs.«169114_j74363063763252_2_alg».proof.Proof.Gen.Kernel.Skeleton
import proofs.«169114_j74363063763252_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX0 : Rect S1024x1024 := Rect.unit (s := S1024x1024) ![0, 0] S1024x1024.size inb_S1024x1024_S1024x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0

/-! ## What the body leaves in each output window's buffer -/

/-- The three outputs' staging buffers after the body: the one whole-buffer store of the column third's payload. -/
def out0_3 (x0 : Vec F S1024x1024 .f32) (x1 : Vec F S1024x3072 .bf16) (x2 : Vec F S1x3072 .f32) : Vec F S1024x1024 .bf16 :=
  View.canon [⟨rX0, k0_pay2 (View.ld x0 rX0) (View.ld x1 rW0) (View.ld x2 rB0)⟩]
def out0_4 (x0 : Vec F S1024x1024 .f32) (x1 : Vec F S1024x3072 .bf16) (x2 : Vec F S1x3072 .f32) : Vec F S1024x1024 .bf16 :=
  View.canon [⟨rX0, k0_pay3 (View.ld x0 rX0) (View.ld x1 rW0) (View.ld x2 rB0)⟩]
def out0_5 (x0 : Vec F S1024x1024 .f32) (x1 : Vec F S1024x3072 .bf16) (x2 : Vec F S1x3072 .f32) : Vec F S1024x1024 .bf16 :=
  View.canon [⟨rX0, k0_pay4 (View.ld x0 rX0) (View.ld x1 rW0) (View.ld x2 rB0)⟩]

/-- One whole-buffer store covers the buffer. -/
theorem cover0 (p0 : Vec F S1024x1024 .bf16) (y : S1024x1024.Idx) :
    ∃ pc ∈ ([⟨rX0, p0⟩] : List (View.Piece (Elt F) S1024x1024 .bf16)), y ∈ pc.1.set :=
  View.cover_of_tiled [⟨rX0, p0⟩] S1024x1024.size (by rfl) y

/-! ## The body's triple -/

set_option maxHeartbeats 4000000 in
/-- The kernel body on whole staging memrefs, the inputs' at contents `x0 x1 x2` and the outputs' at anything, runs to the
    continuation holding the inputs' as they were and each output's at its payload of the inputs'. -/
theorem sound_kernel0 (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the first pipeline on core `c`: the arrays as the region finds them; after the body at point `t`
    each input's buffer at its block and each output's at its payload of the input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Body1.lean ====
/-
  The second pallas_call's half of the frame, at any float instance and at a parameter `V`, the contents of the
  TensorCore's buffers when the region is entered. Each grid point t reads rows [256 t, 256 t + 256) of Q, the whole of
  K and V, the two halves of the combining weights and the bias row, and writes block t of the result: the one store's
  payload of the six blocks read. The body's triple is run symbolically over that payload.
-/
import proofs.«169114_j74363063763252_2_alg».proof.Proof.Gen.Kernel.Launch
import proofs.«169114_j74363063763252_2_alg».proof.Proof.Gen.Kernel.Skeleton
import proofs.«169114_j74363063763252_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: unfetched, the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rQ1 : Rect S256x1024 := Rect.unit (s := S256x1024) ![0, 0] S256x1024.size inb_S256x1024_S256x1024_0_0
abbrev rK1 : Rect S4096x1024 := Rect.unit (s := S4096x1024) ![0, 0] S4096x1024.size inb_S4096x1024_S4096x1024_0_0
abbrev rW1 : Rect S1024x3072 := Rect.unit (s := S1024x3072) ![0, 0] S1024x3072.size inb_S1024x3072_S1024x3072_0_0
abbrev rB1 : Rect S1x3072 := Rect.unit (s := S1x3072) ![0, 0] S1x3072.size inb_S1x3072_S1x3072_0_0

/-! ## What the body leaves in the output window's buffer -/

/-- The output's staging buffer after the body: the one whole-buffer store of the payload. -/
def out1_6 (x0 : Vec F S256x1024 .bf16) (x1 : Vec F S4096x1024 .bf16) (x2 : Vec F S4096x1024 .bf16) (x3 : Vec F S1024x3072 .bf16) (x4 : Vec F S1024x3072 .bf16) (x5 : Vec F S1x3072 .f32) : Vec F S256x1024 .f32 :=
  View.canon [⟨rQ1, k1_pay1 (View.ld x0 rQ1) (View.ld x1 rK1) (View.ld x2 rK1) (View.ld x3 rW1) (View.ld x4 rW1) (View.ld x5 rB1)⟩]

/-- One whole-buffer store covers the buffer. -/
theorem cover1 (p0 : Vec F S256x1024 .f32) (y : S256x1024.Idx) :
    ∃ pc ∈ ([⟨rQ1, p0⟩] : List (View.Piece (Elt F) S256x1024 .f32)), y ∈ pc.1.set :=
  View.cover_of_tiled [⟨rQ1, p0⟩] S256x1024.size (by rfl) y

/-! ## The body's triple -/

set_option maxHeartbeats 4000000 in
/-- The kernel body on whole staging memrefs, the inputs' at contents `x0 … x5` and the output's at anything, runs to the
    continuation holding the inputs' as they were and the output's at its payload of the inputs'. -/
theorem sound_kernel1 (c : Dev nD) (E : Set ℕ) (i : grid1.Coords)
    (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S1x3072 .f32) (harg6 : arg6.IsWhole)
    (arg7 : Memref sig .tc .vmem S256x1024 .f32) (harg7 : arg7.IsWhole)
    (x0 : Vec F S256x1024 .bf16) (x1 : Vec F S4096x1024 .bf16) (x2 : Vec F S4096x1024 .bf16) (x3 : Vec F S1024x3072 .bf16) (x4 : Vec F S1024x3072 .bf16) (x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of the second pipeline on core `c`: the arrays as the region finds them; after the body at point `t`
    each input's buffer at its block and the output's at its payload of the input blocks; the scoped rest and the
    generator register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Run.lean ====
/-
  The run of the whole program, at any float instance: host operations, the first pallas_call, host operations, the second
  pallas_call. The buffers' contents at each boundary are a fold from the launch memory: a stretch of host operations
  applies them in order; a pallas_call leaves each of its arrays at what its write-backs leave and every other buffer as
  entered. Every weakly fair execution terminates and ends with every unscoped buffer at the last boundary's contents;
  in particular the eleven argument arrays end as launched, and the result array holds what the second pipeline's
  write-backs leave.
-/
import proofs.«169114_j74363063763252_2_alg».proof.Proof.KB.Body0
import proofs.«169114_j74363063763252_2_alg».proof.Proof.KB.Body1
import proofs.«169114_j74363063763252_2_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch changes only the buffers its operations write. -/
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the eleven argument arrays after the run: the result holds what the second pipeline's write-backs
    leave, every argument its launch contents. -/
theorem run_result : θ_run defs (onTc (τ := τ) (main (F := F))) ⟨m, fun _ => 0, ρ⟩ (fun r => ∀ c : Dev nD,
      r.2.mem ((c.tc : Thread nD τ).loc main_v13) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v13 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.Kernel.Fr

end
-- ==== Proof.KI.Body0.lean ====
/-
  The first pallas_call's half of the frame, at any float instance and at a parameter `V`, the contents of the TensorCore's
  buffers when the region is entered. Each grid point t reads rows [1024 t, 1024 t + 1024) of the input array, the
  whole transposed weight matrix [Wq | Wk | Wv]ᵀ and the whole bias row, and writes the three column thirds of
  x·W + b as the blocks t of the three output arrays. What each output's staging buffer holds after the body is the one
  store's payload of the three blocks read; the body's triple is run symbolically over those payloads.
-/
import proofs.«169114_j74363063763252_2_alg».proof.Proof.Gen.KernelIdeal.Launch
import proofs.«169114_j74363063763252_2_alg».proof.Proof.Gen.KernelIdeal.Skeleton
import proofs.«169114_j74363063763252_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: unfetched, the
    block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not: unfetched, the
    block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not: unfetched, the
    block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rX0 : Rect S1024x1024 := Rect.unit (s := S1024x1024) ![0, 0] S1024x1024.size inb_S1024x1024_S1024x1024_0_0
abbrev rW0 : Rect S1024x3072 := Rect.unit (s := S1024x3072) ![0, 0] S1024x3072.size inb_S1024x3072_S1024x3072_0_0
abbrev rB0 : Rect S1x3072 := Rect.unit (s := S1x3072) ![0, 0] S1x3072.size inb_S1x3072_S1x3072_0_0

/-! ## What the body leaves in each output window's buffer -/

/-- The three outputs' staging buffers after the body: the one whole-buffer store of the column third's payload. -/
def out0_3 (x0 : Vec F S1024x1024 .f32) (x1 : Vec F S1024x3072 .bf16) (x2 : Vec F S1x3072 .f32) : Vec F S1024x1024 .bf16 :=
  View.canon [⟨rX0, k0_pay2 (View.ld x0 rX0) (View.ld x1 rW0) (View.ld x2 rB0)⟩]
def out0_4 (x0 : Vec F S1024x1024 .f32) (x1 : Vec F S1024x3072 .bf16) (x2 : Vec F S1x3072 .f32) : Vec F S1024x1024 .bf16 :=
  View.canon [⟨rX0, k0_pay3 (View.ld x0 rX0) (View.ld x1 rW0) (View.ld x2 rB0)⟩]
def out0_5 (x0 : Vec F S1024x1024 .f32) (x1 : Vec F S1024x3072 .bf16) (x2 : Vec F S1x3072 .f32) : Vec F S1024x1024 .bf16 :=
  View.canon [⟨rX0, k0_pay4 (View.ld x0 rX0) (View.ld x1 rW0) (View.ld x2 rB0)⟩]

/-- One whole-buffer store covers the buffer. -/
theorem cover0 (p0 : Vec F S1024x1024 .bf16) (y : S1024x1024.Idx) :
    ∃ pc ∈ ([⟨rX0, p0⟩] : List (View.Piece (Elt F) S1024x1024 .bf16)), y ∈ pc.1.set :=
  View.cover_of_tiled [⟨rX0, p0⟩] S1024x1024.size (by rfl) y

/-! ## The body's triple -/

set_option maxHeartbeats 4000000 in
/-- The kernel body on whole staging memrefs, the inputs' at contents `x0 x1 x2` and the outputs' at anything, runs to the
    continuation holding the inputs' as they were and each output's at its payload of the inputs'. -/
theorem sound_kernel0 (c : Dev nD) (E : Set ℕ) (i : grid0.Coords)
    (arg1 : Memref sig .tc .vmem S1024x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S1024x1024 .bf16) (harg4 : arg4.IsWhole)
    (arg5 : Memref sig .tc .vmem S1024x1024 .bf16) (harg5 : arg5.IsWhole) (arg6 : Memref sig .tc .vmem S1024x1024 .bf16) (harg6 : arg6.IsWhole)
    (x0 : Vec F S1024x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x0 x1 x2)
            ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0 _)
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

/-! ## The pipeline's proof data -/

/-- The proof data of the first pipeline on core `c`: the arrays as the region finds them; after the body at point `t`
    each input's buffer at its block and each output's at its payload of the input blocks; the scoped rest and the
    generator register ride along untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the triple applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Body1.lean ====
/-
  The second pallas_call's half of the frame, at any float instance and at a parameter `V`, the contents of the
  TensorCore's buffers when the region is entered. Each grid point t reads rows [256 t, 256 t + 256) of Q, the whole of
  K and V, the two halves of the combining weights and the bias row, and writes block t of the result: the one store's
  payload of the six blocks read. The body's triple is run symbolically over that payload.
-/
import proofs.«169114_j74363063763252_2_alg».proof.Proof.Gen.KernelIdeal.Launch
import proofs.«169114_j74363063763252_2_alg».proof.Proof.Gen.KernelIdeal.Skeleton
import proofs.«169114_j74363063763252_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: unfetched, the
    block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not: unfetched, the
    block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not: unfetched, the
    block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not: unfetched, the
    block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not: unfetched, the
    block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not: unfetched, the
    block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rQ1 : Rect S256x1024 := Rect.unit (s := S256x1024) ![0, 0] S256x1024.size inb_S256x1024_S256x1024_0_0
abbrev rK1 : Rect S4096x1024 := Rect.unit (s := S4096x1024) ![0, 0] S4096x1024.size inb_S4096x1024_S4096x1024_0_0
abbrev rW1 : Rect S1024x3072 := Rect.unit (s := S1024x3072) ![0, 0] S1024x3072.size inb_S1024x3072_S1024x3072_0_0
abbrev rB1 : Rect S1x3072 := Rect.unit (s := S1x3072) ![0, 0] S1x3072.size inb_S1x3072_S1x3072_0_0

/-! ## What the body leaves in the output window's buffer -/

/-- The output's staging buffer after the body: the one whole-buffer store of the payload. -/
def out1_6 (x0 : Vec F S256x1024 .bf16) (x1 : Vec F S4096x1024 .bf16) (x2 : Vec F S4096x1024 .bf16) (x3 : Vec F S1024x3072 .bf16) (x4 : Vec F S1024x3072 .bf16) (x5 : Vec F S1x3072 .f32) : Vec F S256x1024 .f32 :=
  View.canon [⟨rQ1, k1_pay1 (View.ld x0 rQ1) (View.ld x1 rK1) (View.ld x2 rK1) (View.ld x3 rW1) (View.ld x4 rW1) (View.ld x5 rB1)⟩]

/-- One whole-buffer store covers the buffer. -/
theorem cover1 (p0 : Vec F S256x1024 .f32) (y : S256x1024.Idx) :
    ∃ pc ∈ ([⟨rQ1, p0⟩] : List (View.Piece (Elt F) S256x1024 .f32)), y ∈ pc.1.set :=
  View.cover_of_tiled [⟨rQ1, p0⟩] S256x1024.size (by rfl) y

/-! ## The body's triple -/

set_option maxHeartbeats 4000000 in
/-- The kernel body on whole staging memrefs, the inputs' at contents `x0 … x5` and the output's at anything, runs to the
    continuation holding the inputs' as they were and the output's at its payload of the inputs'. -/
theorem sound_kernel1 (c : Dev nD) (E : Set ℕ) (i : grid1.Coords)
    (arg1 : Memref sig .tc .vmem S256x1024 .bf16) (harg1 : arg1.IsWhole) (arg2 : Memref sig .tc .vmem S4096x1024 .bf16) (harg2 : arg2.IsWhole)
    (arg3 : Memref sig .tc .vmem S4096x1024 .bf16) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S1x3072 .f32) (harg6 : arg6.IsWhole)
    (arg7 : Memref sig .tc .vmem S256x1024 .f32) (harg7 : arg7.IsWhole)
    (x0 : Vec F S256x1024 .bf16) (x1 : Vec F S4096x1024 .bf16) (x2 : Vec F S4096x1024 .bf16) (x3 : Vec F S1024x3072 .bf16) (x4 : Vec F S1024x3072 .bf16) (x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__fused_kernel i arg1 harg1 arg2 harg2 arg3 harg3 arg4 harg4 arg5 harg5 arg6 harg6 arg7 harg7) K := by
  simp only [cc1__fused_kernel_eq_skeleton]; unfold cc1__fused_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1 _)

/-! ## The pipeline's proof data -/

/-- The proof data of the second pipeline on core `c`: the arrays as the region finds them; after the body at point `t`
    each input's buffer at its block and the output's at its payload of the input blocks; the scoped rest and the
    generator register ride along untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks, so the triple applies; the invariant and the core's
    dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Run.lean ====
/-
  The run of the whole program, at any float instance: host operations, the first pallas_call, host operations, the second
  pallas_call. The buffers' contents at each boundary are a fold from the launch memory: a stretch of host operations
  applies them in order; a pallas_call leaves each of its arrays at what its write-backs leave and every other buffer as
  entered. Every weakly fair execution terminates and ends with every unscoped buffer at the last boundary's contents;
  in particular the eleven argument arrays end as launched, and the result array holds what the second pipeline's
  write-backs leave.
-/
import proofs.«169114_j74363063763252_2_alg».proof.Proof.KI.Body0
import proofs.«169114_j74363063763252_2_alg».proof.Proof.KI.Body1
import proofs.«169114_j74363063763252_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first pallas_call: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the second pallas_call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch changes only the buffers its operations write. -/
theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := W3_of m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of m ρ c main_arg7 (by decide)
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := W3_of m ρ c main_arg8 (by decide)
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of m ρ c main_arg9 (by decide)
    _ = W1 m ρ c (Proc.devRef .tc main_arg9) := W2_of_ne m ρ c main_arg9 (by decide)
    _ = W0 m ρ c (Proc.devRef .tc main_arg9) := W1_of m ρ c main_arg9 (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := W3_of m ρ c main_arg10 (by decide)
    _ = W1 m ρ c (Proc.devRef .tc main_arg10) := W2_of_ne m ρ c main_arg10 (by decide)
    _ = W0 m ρ c (Proc.devRef .tc main_arg10) := W1_of m ρ c main_arg10 (by decide)
    _ = m ((c : Thread nD τ).loc main_arg10) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the contents
    after it. Its arrays are split out of the unscoped buffers and put back at what the pipeline leaves; the generator
    register goes into the invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents
    after it. Its arrays are split out of the unscoped buffers and put back at what the pipeline leaves; the generator
    register goes into the invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters, every weakly fair execution of the program terminates, nothing faulting, and every
    final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array and the eleven argument arrays after the run: the result holds what the second pipeline's write-backs
    leave, every argument its launch contents. -/
theorem run_result : θ_run defs (onTc (τ := τ) (main (F := F))) ⟨m, fun _ => 0, ρ⟩ (fun r => ∀ c : Dev nD,
      r.2.mem ((c.tc : Thread nD τ).loc main_v13) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c _ (mem_uc main_v13 (by decide))).trans (W4_arr m ρ c 6),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c),
      (h c _ (mem_uc main_arg9 (by decide))).trans (W4_main_arg9 m ρ c),
      (h c _ (mem_uc main_arg10 (by decide))).trans (W4_main_arg10 m ρ c)⟩) (run_all m ρ)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => (h c).2) (run_result m ρ)

end Cert.KernelIdeal.Fr

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.KVal.Pay0.lean ====
/-
  The first kernel's stores read at an entry, on the extended reals: entry (p, j) of each stored block is the inner
  product of row p of the input block with column c of the weight block plus the bias at c, where c is j, 1024 + j or
  2048 + j for the three outputs. (The rounding to bfloat16 before the product and before the store is the identity here.)
-/
import proofs.«169114_j74363063763252_2_alg».proof.Proof.Gen.KernelIdeal.Skeleton
import proofs.«169114_j74363063763252_2_alg».proof.Proof.LibPlainMatmul
import Idealize.ShloMosaic.Lib.ValueLayout
import Idealize.ShloMosaic.Lib.Pipeline.Value

noncomputable section

open scoped BigOperators

namespace Cert.KernelIdeal.KVal

open Cert.KernelIdeal Cert.KernelIdeal.Gen Idealize.ShloMosaic Idealize.ShloMosaic.ValueIdx

/-- A kernel's plain m×k by k×n product into the zero accumulator, under any printed record that is the plain one. -/
theorem matmul_zero_apply {m k n : Nat} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂) (a : Fin m) (b : Fin n) :
    matmul D none A B (constant (F := Ideal) ⟨2, ![m, n]⟩ .f32 0x00000000#32) (ix2 a b) = ∑ c : Fin k, A (ix2 a c) * B (ix2 c b) := by
  subst hD
  exact Cert.LibPlainMatmul.matmul_plain_zero_apply none A B a b

/-- The three column thirds of an axis of extent 3072. -/
def col0 (j : Fin 1024) : Fin 3072 := ⟨j.val, by omega⟩
def col1 (j : Fin 1024) : Fin 3072 := ⟨1024 + j.val, by omega⟩
def col2 (j : Fin 1024) : Fin 3072 := ⟨2048 + j.val, by omega⟩

/-- x·W + b at an entry. -/
theorem pay1_apply (x0 : FVec Ideal S1024x1024 .f32) (w : FVec Ideal S1024x3072 .bf16) (b : FVec Ideal S1x3072 .f32)
    (p : Fin 1024) (c : Fin 3072) :
    k0_pay1 (F := Ideal) x0 w b (ix2 p c) = (∑ k : Fin 1024, x0 (ix2 p k) * w (ix2 k c)) + b (ix2 (0 : Fin 1) c) := by
  unfold k0_pay1
  refine (addf_apply _ _ _).trans ?_
  refine congrArg₂ (· + ·) ?_ ?_
  · rw [shapeCast_self]
    exact matmul_zero_apply _ rfl (truncf .bf16 x0 bitsLt_bf16_f32) w p c
  · rw [shapeCast_self]
    exact broadcastTo_1b_ab_apply b _ p c

theorem pay2_apply (x0 : FVec Ideal S1024x1024 .f32) (w : FVec Ideal S1024x3072 .bf16) (b : FVec Ideal S1x3072 .f32)
    (p j : Fin 1024) :
    k0_pay2 (F := Ideal) x0 w b (ix2 p j) = (∑ k : Fin 1024, x0 (ix2 p k) * w (ix2 k (col0 j))) + b (ix2 (0 : Fin 1) (col0 j)) := by
  unfold k0_pay2
  refine (truncf_apply (ψ := .bf16) (φ := .f32) _ bitsLt_bf16_f32 (ix2 p j)).trans ?_
  refine (slice2_axis1_apply 0 _ _ p j (col0 j) (by simp [col0])).trans ?_
  exact pay1_apply x0 w b p (col0 j)

theorem pay3_apply (x0 : FVec Ideal S1024x1024 .f32) (w : FVec Ideal S1024x3072 .bf16) (b : FVec Ideal S1x3072 .f32)
    (p j : Fin 1024) :
    k0_pay3 (F := Ideal) x0 w b (ix2 p j) = (∑ k : Fin 1024, x0 (ix2 p k) * w (ix2 k (col1 j))) + b (ix2 (0 : Fin 1) (col1 j)) := by
  unfold k0_pay3
  refine (truncf_apply (ψ := .bf16) (φ := .f32) _ bitsLt_bf16_f32 (ix2 p j)).trans ?_
  refine (slice2_axis1_apply 1024 _ _ p j (col1 j) (by simp [col1])).trans ?_
  exact pay1_apply x0 w b p (col1 j)

theorem pay4_apply (x0 : FVec Ideal S1024x1024 .f32) (w : FVec Ideal S1024x3072 .bf16) (b : FVec Ideal S1x3072 .f32)
    (p j : Fin 1024) :
    k0_pay4 (F := Ideal) x0 w b (ix2 p j) = (∑ k : Fin 1024, x0 (ix2 p k) * w (ix2 k (col2 j))) + b (ix2 (0 : Fin 1) (col2 j)) := by
  unfold k0_pay4
  refine (truncf_apply (ψ := .bf16) (φ := .f32) _ bitsLt_bf16_f32 (ix2 p j)).trans ?_
  refine (slice2_axis1_apply 2048 _ _ p j (col2 j) (by simp [col2])).trans ?_
  exact pay1_apply x0 w b p (col2 j)

end Cert.KernelIdeal.KVal

end
-- ==== Proof.Spec.lean ====
/-
  The function both programs compute, index by index on the extended reals, written row by row.

  Three linear layers give Q, K, V (a row of `x` against the rows of a weight, plus a bias). A score is the inner product
  of a row of Q with a row of K, scaled by 1/32. A row of scores is shifted by its maximum, exponentiated and summed; the
  attended row is the exp-weighted sum of the rows of V divided by that sum. The attended row and the row of Q, side by
  side, go through two more linear layers (weights `Wl`, `Wa`; the contraction over 2048 split into its two halves of
  1024), and the result is x1 · (a · logistic b), `a` and `b` the two halves of the second layer's output.
-/
import Idealize.ShloMosaic.PureOps.Ideal
import Idealize.ShloMosaic.Lib.ValueIdx

noncomputable section

open scoped BigOperators

namespace Cert.Attn

open Idealize.ShloMosaic Idealize.ShloMosaic.ValueIdx

/-- A matrix / a vector of extended reals over literal extents. -/
abbrev Mat (a b : Nat) : Type := (⟨2, ![a, b]⟩ : Shape).Idx → EReal
abbrev Vc (a : Nat) : Type := (⟨1, ![a]⟩ : Shape).Idx → EReal

/-- The lower and the upper half of an axis of extent 2048. -/
def lo (j : Fin 1024) : Fin 2048 := ⟨j.val, by omega⟩
def hi (j : Fin 1024) : Fin 2048 := ⟨1024 + j.val, by omega⟩

/-- A linear layer: entry (r, j) of x·Wᵀ + b. -/
def lin (x : Mat 4096 1024) (W : Mat 1024 1024) (b : Vc 1024) (r : Fin 4096) (j : Fin 1024) : EReal :=
  (∑ k : Fin 1024, x (ix2 r k) * W (ix2 j k)) + b (ix1 j)

/-- The scaled scores of one query row against every key row. -/
def score (q : Fin 1024 → EReal) (K : Fin 4096 → Fin 1024 → EReal) (n : Fin 4096) : EReal :=
  (∑ k : Fin 1024, q k * K n k) * (((1 / 32 : ℝ) : ℝ) : EReal)

/-- The largest score of a row (the fold of max from -inf over the row). -/
def rowMax (s : Fin 4096 → EReal) : EReal :=
  Finset.univ.fold max (⊥ : EReal) s

/-- The shifted exponential of a score. -/
def pexp (s : Fin 4096 → EReal) (n : Fin 4096) : EReal :=
  Ideal.exp (s n - rowMax s)

/-- The normalizer of a row. -/
def rowSum (s : Fin 4096 → EReal) : EReal :=
  ∑ n : Fin 4096, pexp s n

/-- The attended row: the exp-weighted sum of V's rows over the normalizer. -/
def attend (s : Fin 4096 → EReal) (V : Fin 4096 → Fin 1024 → EReal) (k : Fin 1024) : EReal :=
  Ideal.div (∑ n : Fin 4096, pexp s n * V n k) (rowSum s)

/-- One output of a linear layer over the concatenation [attended row, Q row]: `w` is that output's row of weights
    (extent 2048), `b` its bias. -/
def comb (a q : Fin 1024 → EReal) (w : Fin 2048 → EReal) (b : EReal) : EReal :=
  (∑ k : Fin 1024, a k * w (lo k)) + (∑ k : Fin 1024, q k * w (hi k)) + b

/-- The gated product of the three combined outputs. -/
def gate (x1 a b : EReal) : EReal := x1 * (a * Ideal.logistic b)

/-- The whole function of the eleven argument arrays. -/
def out (x : Mat 4096 1024) (Wq : Mat 1024 1024) (bq : Vc 1024) (Wk : Mat 1024 1024) (bk : Vc 1024)
    (Wv : Mat 1024 1024) (bv : Vc 1024) (Wl : Mat 1024 2048) (bl : Vc 1024) (Wa : Mat 2048 2048) (ba : Vc 2048) :
    Mat 4096 1024 := fun i =>
  let q := lin x Wq bq (i 0)
  let a := attend (score q (lin x Wk bk)) (lin x Wv bv)
  gate (comb a q (fun k => Wl (ix2 (i 1) k)) (bl (ix1 (i 1))))
    (comb a q (fun k => Wa (ix2 (lo (i 1)) k)) (ba (ix1 (lo (i 1)))))
    (comb a q (fun k => Wa (ix2 (hi (i 1)) k)) (ba (ix1 (hi (i 1)))))

end Cert.Attn

end
-- ==== Proof.LibStackedPieces.lean ====
/-
  Arrays laid one after another along their first axis, read at an entry.

  `jnp.concatenate([x1, x2, x3], axis=0)` of matrices of one width (or of vectors) reads, at row r, the piece whose span of
  rows holds r, at the row r less the rows of the pieces before it; every other coordinate is unchanged. Stated for three
  and for two pieces, for matrices [n, w] and for vectors [n], at any extents and any element type, with the row inside
  the piece given by the caller together with the one arithmetic fact that places it (so each lemma applies to a printed
  concatenation by unification and the side goal is closed by `rfl` or `omega`).
-/
import Idealize.ShloMosaic.Lib.Pipeline.Value
import Idealize.ShloMosaic.Lib.ValueIdx

noncomputable section

namespace Cert.LibStackedPieces

open Idealize.ShloMosaic Idealize.ShloMosaic.ValueIdx

section Stack
variable {α : Type}

/-- Three matrices stacked by rows: row r of the stack is row r' of the piece whose span holds r. -/
theorem stack3_rows_0 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n1) (hr : r.val = r'.val) :
    concatenate ⟨2, ![n, w]⟩ 0 [⟨⟨2, ![n1, w]⟩, x1⟩, ⟨⟨2, ![n2, w]⟩, x2⟩, ⟨⟨2, ![n3, w]⟩, x3⟩] h (ix2 r e) = x1 (ix2 r' e) :=
  concatenate_apply_piece 0 [⟨⟨2, ![n1, w]⟩, x1⟩, ⟨⟨2, ![n2, w]⟩, x2⟩, ⟨⟨2, ![n3, w]⟩, x3⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack3_rows_1 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n2) (hr : r.val = n1 + r'.val) :
    concatenate ⟨2, ![n, w]⟩ 0 [⟨⟨2, ![n1, w]⟩, x1⟩, ⟨⟨2, ![n2, w]⟩, x2⟩, ⟨⟨2, ![n3, w]⟩, x3⟩] h (ix2 r e) = x2 (ix2 r' e) :=
  concatenate_apply_piece 0 [⟨⟨2, ![n1, w]⟩, x1⟩, ⟨⟨2, ![n2, w]⟩, x2⟩, ⟨⟨2, ![n3, w]⟩, x3⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack3_rows_2 {n1 n2 n3 n w : Nat} (x1 : (⟨2, ![n1, w]⟩ : Shape).Idx → α) (x2 : (⟨2, ![n2, w]⟩ : Shape).Idx → α)
    (x3 : (⟨2, ![n3, w]⟩ : Shape).Idx → α) (h : Shape.Concatenates [⟨2, ![n1, w]⟩, ⟨2, ![n2, w]⟩, ⟨2, ![n3, w]⟩] ⟨2, ![n, w]⟩ 0)
    (r : Fin n) (e : Fin w) (r' : Fin n3) (hr : r.val = n1 + n2 + r'.val) :
    concatenate ⟨2, ![n, w]⟩ 0 [⟨⟨2, ![n1, w]⟩, x1⟩, ⟨⟨2, ![n2, w]⟩, x2⟩, ⟨⟨2, ![n3, w]⟩, x3⟩] h (ix2 r e) = x3 (ix2 r' e) :=
  concatenate_apply_piece 0 [⟨⟨2, ![n1, w]⟩, x1⟩, ⟨⟨2, ![n2, w]⟩, x2⟩, ⟨⟨2, ![n3, w]⟩, x3⟩] h (ix2 r e) 2 (by simp) _ x3 rfl rfl (n1 + n2) (by simp) (ix2 r' e)
    (fun b hb => by match b with | ⟨0, _⟩ => exact absurd rfl hb | ⟨1, _⟩ => rfl) (by show n1 + n2 + r'.val = r.val; omega)

/-- Three vectors laid end to end. -/
theorem stack3_vec_0 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n1) (hr : r.val = r'.val) :
    concatenate ⟨1, ![n]⟩ 0 [⟨⟨1, ![n1]⟩, x1⟩, ⟨⟨1, ![n2]⟩, x2⟩, ⟨⟨1, ![n3]⟩, x3⟩] h (ix1 r) = x1 (ix1 r') :=
  concatenate_apply_piece 0 [⟨⟨1, ![n1]⟩, x1⟩, ⟨⟨1, ![n2]⟩, x2⟩, ⟨⟨1, ![n3]⟩, x3⟩] h (ix1 r) 0 (by simp) _ x1 rfl rfl 0 (by simp) (ix1 r')
    (fun b hb => by match b with | ⟨0, _⟩ => exact absurd rfl hb) (by show 0 + r'.val = r.val; omega)
theorem stack3_vec_1 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n2) (hr : r.val = n1 + r'.val) :
    concatenate ⟨1, ![n]⟩ 0 [⟨⟨1, ![n1]⟩, x1⟩, ⟨⟨1, ![n2]⟩, x2⟩, ⟨⟨1, ![n3]⟩, x3⟩] h (ix1 r) = x2 (ix1 r') :=
  concatenate_apply_piece 0 [⟨⟨1, ![n1]⟩, x1⟩, ⟨⟨1, ![n2]⟩, x2⟩, ⟨⟨1, ![n3]⟩, x3⟩] h (ix1 r) 1 (by simp) _ x2 rfl rfl n1 (by simp) (ix1 r')
    (fun b hb => by match b with | ⟨0, _⟩ => exact absurd rfl hb) (by show n1 + r'.val = r.val; omega)
theorem stack3_vec_2 {n1 n2 n3 n : Nat} (x1 : (⟨1, ![n1]⟩ : Shape).Idx → α) (x2 : (⟨1, ![n2]⟩ : Shape).Idx → α)
    (x3 : (⟨1, ![n3]⟩ : Shape).Idx → α) (h : Shape.Concatenates [⟨1, ![n1]⟩, ⟨1, ![n2]⟩, ⟨1, ![n3]⟩] ⟨1, ![n]⟩ 0)
    (r : Fin n) (r' : Fin n3) (hr : r.val = n1 + n2 + r'.val) :
    concatenate ⟨1, ![n]⟩ 0 [⟨⟨1, ![n1]⟩, x1⟩, ⟨⟨1, ![n2]⟩, x2⟩, ⟨⟨1, ![n3]⟩, x3⟩] h (ix1 r) = x3 (ix1 r') :=
  concatenate_apply_piece 0 [⟨⟨1, ![n1]⟩, x1⟩, ⟨⟨1, ![n2]⟩, x2⟩, ⟨⟨1, ![n3]⟩, x3⟩] h (ix1 r) 2 (by simp) _ x3 rfl rfl (n1 + n2) (by simp) (ix1 r')
    (fun b hb => by match b with | ⟨0, _⟩ => exact absurd rfl hb) (by show n1 + n2 + r'.val = r.val; omega)

/-- Two matrices stacked by rows, and two vectors laid end to end. -/
theorem stack2_rows_0 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n1) (hr : r.val = r'.val) :
    concatenate ⟨2, ![n, w]⟩ 0 [⟨⟨2, ![n1, w]⟩, x1⟩, ⟨⟨2, ![n2, w]⟩, x2⟩] h (ix2 r e) = x1 (ix2 r' e) :=
  concatenate_apply_piece 0 [⟨⟨2, ![n1, w]⟩, x1⟩, ⟨⟨2, ![n2, w]⟩, x2⟩] h (ix2 r e) 0 (by simp) _ x1 rfl rfl 0 (by simp) (ix2 r' e)
    (fun b hb => by match b with | ⟨0, _⟩ => exact absurd rfl hb | ⟨1, _⟩ => rfl) (by show 0 + r'.val = r.val; omega)
theorem stack2_rows_1 {n1 n2 n w : Nat} (x1 : (⟨2, ![n1, w]⟩ : Shape).Idx → α) (x2 : (⟨2, ![n2, w]⟩ : Shape).Idx → α)
    (h : Shape.Concatenates [⟨2, ![n1, w]⟩, ⟨2, ![n2, w]⟩] ⟨2, ![n, w]⟩ 0) (r : Fin n) (e : Fin w) (r' : Fin n2) (hr : r.val = n1 + r'.val) :
    concatenate ⟨2, ![n, w]⟩ 0 [⟨⟨2, ![n1, w]⟩, x1⟩, ⟨⟨2, ![n2, w]⟩, x2⟩] h (ix2 r e) = x2 (ix2 r' e) :=
  concatenate_apply_piece 0 [⟨⟨2, ![n1, w]⟩, x1⟩, ⟨⟨2, ![n2, w]⟩, x2⟩] h (ix2 r e) 1 (by simp) _ x2 rfl rfl n1 (by simp) (ix2 r' e)
    (fun b hb => by match b with | ⟨0, _⟩ => exact absurd rfl hb | ⟨1, _⟩ => rfl) (by show n1 + r'.val = r.val; omega)
theorem stack2_vec_0 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n1) (hr : r.val = r'.val) :
    concatenate ⟨1, ![n]⟩ 0 [⟨⟨1, ![n1]⟩, x1⟩, ⟨⟨1, ![n2]⟩, x2⟩] h (ix1 r) = x1 (ix1 r') :=
  concatenate_apply_piece 0 [⟨⟨1, ![n1]⟩, x1⟩, ⟨⟨1, ![n2]⟩, x2⟩] h (ix1 r) 0 (by simp) _ x1 rfl rfl 0 (by simp) (ix1 r')
    (fun b hb => by match b with | ⟨0, _⟩ => exact absurd rfl hb) (by show 0 + r'.val = r.val; omega)
theorem stack2_vec_1 {n1 n2 n : Nat} (x1 : (⟨1, ![n1]⟩ : Shape).Idx → α) (x2 : (⟨1, ![n2]⟩ : Shape).Idx → α)
    (h : Shape.Concatenates [⟨1, ![n1]⟩, ⟨1, ![n2]⟩] ⟨1, ![n]⟩ 0) (r : Fin n) (r' : Fin n2) (hr : r.val = n1 + r'.val) :
    concatenate ⟨1, ![n]⟩ 0 [⟨⟨1, ![n1]⟩, x1⟩, ⟨⟨1, ![n2]⟩, x2⟩] h (ix1 r) = x2 (ix1 r') :=
  concatenate_apply_piece 0 [⟨⟨1, ![n1]⟩, x1⟩, ⟨⟨1, ![n2]⟩, x2⟩] h (ix1 r) 1 (by simp) _ x2 rfl rfl n1 (by simp) (ix1 r')
    (fun b hb => by match b with | ⟨0, _⟩ => exact absurd rfl hb) (by show n1 + r'.val = r.val; omega)

end Stack

end Cert.LibStackedPieces

end
-- ==== Proof.KVal.Host.lean ====
/-
  The arrays the host operations hand the two kernels, read at an entry, on the extended reals.

  Before the first kernel: the three weight matrices stacked by rows, transposed (and rounded, the identity here), and
  the three biases laid end to end as one row. Entry (k, c) of the transposed stack is entry (c, k) of the stack: for c in
  the first, second or last third of the 3072 columns, an entry of Wq, Wk or Wv. Before the second kernel: the two
  combining weights stacked by rows ([1024, 2048] over [2048, 2048]), transposed, and cut into its first and last 1024
  rows; and the two biases laid end to end. What the first kernel leaves in its three result arrays passes through the
  second stretch of host operations untouched.
-/
import proofs.«169114_j74363063763252_2_alg».proof.Proof.KI.Run
import proofs.«169114_j74363063763252_2_alg».proof.Proof.KVal.Pay0
import proofs.«169114_j74363063763252_2_alg».proof.Proof.Spec
import proofs.«169114_j74363063763252_2_alg».proof.Proof.LibStackedPieces
import Idealize.ShloMosaic.Lib.ValueLayout
import Idealize.ShloMosaic.Lib.Pipeline.Value
import Idealize.ShloMosaic.Lib.StableHlo.Run

noncomputable section

open scoped BigOperators

namespace Cert.KernelIdeal.KVal

open Cert.KernelIdeal Cert.KernelIdeal.Gen Cert.KernelIdeal.Fr
open Idealize.ShloMosaic Idealize.ShloMosaic.TcCoe Idealize.SL.Sem Idealize.ShloMosaic.StableHlo Idealize.ShloMosaic.ValueIdx
open Cert.LibStackedPieces

variable (m : (ℓ : Loc nD τ sig) → Buf (Elt Ideal) ℓ) (ρ : Dev nD → PrngReg)

/-! ## The argument arrays, by name -/

abbrev aX (c : Dev nD) : Attn.Mat 4096 1024 := m ((c.tc : Thread nD τ).loc main_arg0)
abbrev aWq (c : Dev nD) : Attn.Mat 1024 1024 := m ((c.tc : Thread nD τ).loc main_arg1)
abbrev aBq (c : Dev nD) : Attn.Vc 1024 := m ((c.tc : Thread nD τ).loc main_arg2)
abbrev aWk (c : Dev nD) : Attn.Mat 1024 1024 := m ((c.tc : Thread nD τ).loc main_arg3)
abbrev aBk (c : Dev nD) : Attn.Vc 1024 := m ((c.tc : Thread nD τ).loc main_arg4)
abbrev aWv (c : Dev nD) : Attn.Mat 1024 1024 := m ((c.tc : Thread nD τ).loc main_arg5)
abbrev aBv (c : Dev nD) : Attn.Vc 1024 := m ((c.tc : Thread nD τ).loc main_arg6)
abbrev aWl (c : Dev nD) : Attn.Mat 1024 2048 := m ((c.tc : Thread nD τ).loc main_arg7)
abbrev aBl (c : Dev nD) : Attn.Vc 1024 := m ((c.tc : Thread nD τ).loc main_arg8)
abbrev aWa (c : Dev nD) : Attn.Mat 2048 2048 := m ((c.tc : Thread nD τ).loc main_arg9)
abbrev aBa (c : Dev nD) : Attn.Vc 2048 := m ((c.tc : Thread nD τ).loc main_arg10)

/-! ## Before the first kernel -/

theorem V1_arg0 (c : Dev nD) : (V1 m ρ c main_arg0 : S4096x1024.Idx → EReal) = aX m c :=
  W1_of m ρ c main_arg0 (by decide)

/-- The transposed stack of the three weight matrices, as the host operations' term. -/
theorem V1_v2_eq (c : Dev nD) : @Eq (S1024x3072.Idx → EReal) (V1 m ρ c main_v2)
    (truncf (F := Ideal) .bf16 (transpose S1024x3072 [1, 0] (concatenate S3072x1024 0 [⟨S1024x1024, aWq m c⟩, ⟨S1024x1024, aWk m c⟩, ⟨S1024x1024, aWv m c⟩]
        concatenates_S1024x1024_S1024x1024_S1024x1024_S3072x1024_d0) transposes_S3072x1024_S1024x3072_1_0) bitsLt_bf16_f32) := by
  show StableHlo.after hostOps0 (W0 m ρ c) (Proc.devRef .tc main_v2) = _
  after_results
  rfl

theorem V1_v4_eq (c : Dev nD) : @Eq (S1x3072.Idx → EReal) (V1 m ρ c main_v4)
    (shapeCast S1x3072 (concatenate S3072 0 [⟨S1024, aBq m c⟩, ⟨S1024, aBk m c⟩, ⟨S1024, aBv m c⟩]
        concatenates_S1024_S1024_S1024_S3072_d0) shapeCasts_S3072_S1x3072) := by
  show StableHlo.after hostOps0 (W0 m ρ c) (Proc.devRef .tc main_v4) = _
  after_results
  rfl

theorem V1_v2_col0 (c : Dev nD) (k j : Fin 1024) : (V1 m ρ c main_v2 : S1024x3072.Idx → EReal) (ix2 k (col0 j)) = aWq m c (ix2 j k) := by
  rw [V1_v2_eq]
  refine (truncf_apply (ψ := .bf16) (φ := .f32) _ bitsLt_bf16_f32 _).trans ?_
  refine (transpose_ix2_apply _ _ k (col0 j)).trans ?_
  exact stack3_rows_0 _ _ _ _ (col0 j) k j rfl
theorem V1_v2_col1 (c : Dev nD) (k j : Fin 1024) : (V1 m ρ c main_v2 : S1024x3072.Idx → EReal) (ix2 k (col1 j)) = aWk m c (ix2 j k) := by
  rw [V1_v2_eq]
  refine (truncf_apply (ψ := .bf16) (φ := .f32) _ bitsLt_bf16_f32 _).trans ?_
  refine (transpose_ix2_apply _ _ k (col1 j)).trans ?_
  exact stack3_rows_1 _ _ _ _ (col1 j) k j rfl
theorem V1_v2_col2 (c : Dev nD) (k j : Fin 1024) : (V1 m ρ c main_v2 : S1024x3072.Idx → EReal) (ix2 k (col2 j)) = aWv m c (ix2 j k) := by
  rw [V1_v2_eq]
  refine (truncf_apply (ψ := .bf16) (φ := .f32) _ bitsLt_bf16_f32 _).trans ?_
  refine (transpose_ix2_apply _ _ k (col2 j)).trans ?_
  exact stack3_rows_2 _ _ _ _ (col2 j) k j rfl

theorem V1_v4_col0 (c : Dev nD) (j : Fin 1024) : (V1 m ρ c main_v4 : S1x3072.Idx → EReal) (ix2 (0 : Fin 1) (col0 j)) = aBq m c (ix1 j) := by
  rw [V1_v4_eq]
  refine (shapeCast_a_1a_apply _ _ 0 (col0 j)).trans ?_
  exact stack3_vec_0 _ _ _ _ (col0 j) j rfl
theorem V1_v4_col1 (c : Dev nD) (j : Fin 1024) : (V1 m ρ c main_v4 : S1x3072.Idx → EReal) (ix2 (0 : Fin 1) (col1 j)) = aBk m c (ix1 j) := by
  rw [V1_v4_eq]
  refine (shapeCast_a_1a_apply _ _ 0 (col1 j)).trans ?_
  exact stack3_vec_1 _ _ _ _ (col1 j) j rfl
theorem V1_v4_col2 (c : Dev nD) (j : Fin 1024) : (V1 m ρ c main_v4 : S1x3072.Idx → EReal) (ix2 (0 : Fin 1) (col2 j)) = aBv m c (ix1 j) := by
  rw [V1_v4_eq]
  refine (shapeCast_a_1a_apply _ _ 0 (col2 j)).trans ?_
  exact stack3_vec_2 _ _ _ _ (col2 j) j rfl

end Cert.KernelIdeal.KVal

end
-- ==== Proof.KVal.Arr0.lean ====
/-
  What the first kernel leaves in its three result arrays, as whole-array functions of the arrays the region finds.
  Grid point t stages rows [1024 t, 1024 t + 1024) of the input, the whole transposed weights and the whole bias row, and
  writes back rows [1024 t, 1024 t + 1024) of each result; the four points' blocks cover the 4096 rows. So entry (r, j) of
  a result is the inner product of row r of the input with column c of the transposed weights plus the bias at c, c the
  j-th column of the result's third.
-/
import proofs.«169114_j74363063763252_2_alg».proof.Proof.KI.Run
import proofs.«169114_j74363063763252_2_alg».proof.Proof.KVal.Pay0
import Idealize.ShloMosaic.Lib.Pipeline.Value
import Idealize.ShloMosaic.Lib.Tactic

noncomputable section

open scoped BigOperators

namespace Cert.KernelIdeal.KVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the input and the three results move one block of rows per point, the weights
    and the bias stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## The input blocks as entries of the arrays -/

theorem iblk0_x (c : Dev nD) (t : Fin cfg0.N) (p k : Fin 1024) (r : Fin 4096) (hr : r.val = 1024 * t.val + p.val) :
    (iblk0 V c 0 t : FVec Ideal S1024x1024 .f32) (ix2 p k) = (V c main_arg0 : S4096x1024.Idx → EReal) (ix2 r k) := by
  obtain ⟨e0, e1, -, -, -, -, -, -, -, -, -, -⟩ := idx0 t
  unfold iblk0
  rw [View.read_apply]
  show (V c main_arg0 : S4096x1024.Idx → EReal) _ = _
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 1024 + 1 * k.val = k.val; rw [e1]; omega

theorem iblk0_w (c : Dev nD) (t : Fin cfg0.N) (k : Fin 1024) (q : Fin 3072) :
    (iblk0 V c 1 t : FVec Ideal S1024x3072 .bf16) (ix2 k q) = (V c main_v2 : S1024x3072.Idx → EReal) (ix2 k q) := by
  obtain ⟨-, -, e0, e1, -, -, -, -, -, -, -, -⟩ := idx0 t
  unfold iblk0
  rw [View.read_apply]
  show (V c main_v2 : S1024x3072.Idx → EReal) _ = _
  refine congrArg _ (funext fun a => Fin.ext ?_)
  match a with
  | ⟨0, _⟩ => show win0_1.index t (0 : Fin 2) * 1024 + 1 * k.val = k.val; rw [e0]; omega
  | ⟨1, _⟩ => show win0_1.index t (1 : Fin 2) * 3072 + 1 * q.val = q.val; rw [e1]; omega

theorem iblk0_b (c : Dev nD) (t : Fin cfg0.N) (z : Fin 1) (q : Fin 3072) :
    (iblk0 V c 2 t : FVec Ideal S1x3072 .f32) (ix2 z q) = (V c main_v4 : S1x3072.Idx → EReal) (ix2 z q) := by
  obtain ⟨-, -, -, -, e0, e1, -, -, -, -, -, -⟩ := idx0 t
  unfold iblk0
  rw [View.read_apply]
  show (V c main_v4 : S1x3072.Idx → EReal) _ = _
  refine congrArg _ (funext fun a => Fin.ext ?_)
  match a with
  | ⟨0, _⟩ => show win0_2.index t (0 : Fin 2) * 1 + 1 * z.val = z.val; rw [e0]; omega
  | ⟨1, _⟩ => show win0_2.index t (1 : Fin 2) * 3072 + 1 * q.val = q.val; rw [e1]; omega

/-! ## A result array as one function -/

/-- Entry (r, j) of a result: row r of the input against column `col j` of the transposed weights, plus the bias there. -/
def projF (X : S4096x1024.Idx → EReal) (W : S1024x3072.Idx → EReal) (B : S1x3072.Idx → EReal) (col : Fin 1024 → Fin 3072) :
    S4096x1024.Idx → EReal := fun i =>
  (∑ k : Fin 1024, X (ix2 (i 0) k) * W (ix2 k (col (i 1)))) + B (ix2 (0 : Fin 1) (col (i 1)))
def proj (c : Dev nD) (col : Fin 1024 → Fin 3072) : S4096x1024.Idx → EReal :=
  projF (V c main_arg0) (V c main_v2) (V c main_v4) col

/-! ### Output window 3 -/

theorem emb0_3 (t : Fin cfg0.N) (p j : Fin 1024) (r : Fin 4096) (hr : r.val = 1024 * t.val + p.val) :
    ((cfg0.win 3).blk t).view.emb (ix2 p j) = (ix2 r j : S4096x1024.Idx) := by
  obtain ⟨-, -, -, -, -, -, e0, e1, -, -, -, -⟩ := idx0 t
  funext a; apply Fin.ext
  match a with
  | ⟨0, _⟩ => show win0_3.index t (0 : Fin 2) * 1024 + 1 * p.val = r.val; rw [e0, hr]; omega
  | ⟨1, _⟩ => show win0_3.index t (1 : Fin 2) * 1024 + 1 * j.val = j.val; rw [e1]; omega

/-- What point `t` writes back is block `t` of the result's function. -/
theorem flushed0_3 (c : Dev nD) (t : Fin cfg0.N) :
    (dat0 V c).flushed 3 t = ((cfg0.win 3).blk t).view.read (Elt Ideal) (proj V c col0) := by
  show (cfg0.win 3).cut (grid0.coords t) ((dat0 V c).after 3 t) = _
  rw [after0_3]
  unfold out0_3
  rw [View.canon_unit_zero hz2]
  simp only [View.ld_unit_zero (S := S1024x1024) hz2, View.ld_unit_zero (S := S1024x3072) hz2, View.ld_unit_zero (S := S1x3072) hz2]
  funext y
  obtain ⟨p, j, rfl⟩ : ∃ (p : Fin 1024) (j : Fin 1024), y = ix2 p j := ⟨y 0, y 1, eq_ix2 y⟩
  have hN : cfg0.N = 4 := N_0
  have ht := t.isLt
  have hp := p.isLt
  let r : Fin 4096 := ⟨1024 * t.val + p.val, by omega⟩
  have hr : r.val = 1024 * t.val + p.val := rfl
  rw [View.read_apply, emb0_3 t p j r hr]
  show k0_pay2 (F := Ideal) (iblk0 V c 0 t) (iblk0 V c 1 t) (iblk0 V c 2 t) (ix2 p j) = proj V c col0 (ix2 r j)
  refine (pay2_apply _ _ _ p j).trans ?_
  unfold proj projF
  exact congrArg₂ (· + ·) (Finset.sum_congr rfl fun k _ => congrArg₂ (· * ·) (iblk0_x V c t p k r hr) (iblk0_w V c t k _)) (iblk0_b V c t 0 _)

theorem mem_blk0_3 (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5_0).slice (win0_3.rect t)).set ↔ _
  rw [View.set_slice_whole, Rect.mem_set_unit]
  exact Iff.rfl

theorem cover0_3 (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 4 := N_0
  let t : Fin cfg0.N := ⟨(i 0).val / 1024, by rw [hN]; omega⟩
  have htv : t.val = (i 0).val / 1024 := rfl
  refine ⟨t, flush0_3 t, ?_⟩
  rw [mem_blk0_3]
  obtain ⟨-, -, -, -, -, -, e0, e1, -, -, -, -⟩ := idx0 t
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 1024 ≤ (i 1).val ∧ (i 1).val < win0_3.index t (1 : Fin 2) * 1024 + 1024; rw [e1]; omega

/-- The array after the region. -/
theorem final0_3 (c : Dev nD) : (dat0 V c).arrAt 3 cfg0.N = proj V c col0 :=
  (dat0 V c).arrAt_eq_of_cover 3 (proj V c col0) (fun t _ => flushed0_3 V c t) cover0_3

/-! ### Output window 4 -/

theorem emb0_4 (t : Fin cfg0.N) (p j : Fin 1024) (r : Fin 4096) (hr : r.val = 1024 * t.val + p.val) :
    ((cfg0.win 4).blk t).view.emb (ix2 p j) = (ix2 r j : S4096x1024.Idx) := by
  obtain ⟨-, -, -, -, -, -, -, -, e0, e1, -, -⟩ := idx0 t
  funext a; apply Fin.ext
  match a with
  | ⟨0, _⟩ => show win0_4.index t (0 : Fin 2) * 1024 + 1 * p.val = r.val; rw [e0, hr]; omega
  | ⟨1, _⟩ => show win0_4.index t (1 : Fin 2) * 1024 + 1 * j.val = j.val; rw [e1]; omega

/-- What point `t` writes back is block `t` of the result's function. -/
theorem flushed0_4 (c : Dev nD) (t : Fin cfg0.N) :
    (dat0 V c).flushed 4 t = ((cfg0.win 4).blk t).view.read (Elt Ideal) (proj V c col1) := by
  show (cfg0.win 4).cut (grid0.coords t) ((dat0 V c).after 4 t) = _
  rw [after0_4]
  unfold out0_4
  rw [View.canon_unit_zero hz2]
  simp only [View.ld_unit_zero (S := S1024x1024) hz2, View.ld_unit_zero (S := S1024x3072) hz2, View.ld_unit_zero (S := S1x3072) hz2]
  funext y
  obtain ⟨p, j, rfl⟩ : ∃ (p : Fin 1024) (j : Fin 1024), y = ix2 p j := ⟨y 0, y 1, eq_ix2 y⟩
  have hN : cfg0.N = 4 := N_0
  have ht := t.isLt
  have hp := p.isLt
  let r : Fin 4096 := ⟨1024 * t.val + p.val, by omega⟩
  have hr : r.val = 1024 * t.val + p.val := rfl
  rw [View.read_apply, emb0_4 t p j r hr]
  show k0_pay3 (F := Ideal) (iblk0 V c 0 t) (iblk0 V c 1 t) (iblk0 V c 2 t) (ix2 p j) = proj V c col1 (ix2 r j)
  refine (pay3_apply _ _ _ p j).trans ?_
  unfold proj projF
  exact congrArg₂ (· + ·) (Finset.sum_congr rfl fun k _ => congrArg₂ (· * ·) (iblk0_x V c t p k r hr) (iblk0_w V c t k _)) (iblk0_b V c t 0 _)

theorem mem_blk0_4 (t : Fin cfg0.N) (i : S4096x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v5_1).slice (win0_4.rect t)).set ↔ _
  rw [View.set_slice_whole, Rect.mem_set_unit]
  exact Iff.rfl

theorem cover0_4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 4 := N_0
  let t : Fin cfg0.N := ⟨(i 0).val / 1024, by rw [hN]; omega⟩
  have htv : t.val = (i 0).val / 1024 := rfl
  refine ⟨t, flush0_4 t, ?_⟩
  rw [mem_blk0_4]
  obtain ⟨-, -, -, -, -, -, -, -, e0, e1, -, -⟩ := idx0 t
  intro a
  match a with
  | ⟨0, _⟩ => show win0_4.index t (0 : Fin 2) * 1024 ≤ (i 0).val ∧ (i 0).val < win0_4.index t (0 : Fin 2) * 1024 + 1024; rw [e0, htv]; omega
  | ⟨1, _⟩ => show win0_4.index t (1 : Fin 2) * 1024 ≤ (i 1).val ∧ (i 1).val < win0_4.index t (1 : Fin 2) * 1024 + 1024; rw [e1]; omega

/-- The array after the region. -/
theorem final0_4 (c : Dev nD) : (dat0 V c).arrAt 4 cfg0.N = proj V c col1 :=
  (dat0 V c).arrAt_eq_of_cover 4 (proj V c col1) (fun t _ => flushed0_4 V c t) cover0_4

/-! ### Output window 5 -/

theorem emb0_5 (t : Fin cfg0.N) (p j : Fin 1024) (r : Fin 4096) (hr : r.val = 1024 * t.val + p.val) :
    ((cfg0.win 5).blk t).view.emb (ix2 p j) = (ix2 r j : S4096x1024.Idx) := by
  obtain ⟨-, -, -, -, -, -, -, -, -, -, e0, e1⟩ := idx0 t
  funext a; apply Fin.ext
  match a with
  | ⟨0, _⟩ => show win0_5.index t (0 : Fin 2) * 1024 + 1 * p.val = r.val; rw [e0, hr]; omega
  | ⟨1, _⟩ => show win0_5.index t (1 : Fin 2) * 1024 + 1 * j.val = j.val; rw [e1]; omega

/-- What point `t` writes back is block `t` of the result's function. -/
theorem flushed0_5 (c : Dev nD) (t : Fin cfg0.N) :
    (dat0 V c).flushed 5 t = ((cfg0.win 5).blk t).view.read (Elt Ideal) (proj V c col2) := by
  show (cfg0.win 5).cut (grid0.coords t) ((dat0 V c).after 5 t) = _
  rw [after0_5]
  unfold out0_5
  rw [View.canon_unit_zero hz2]
  simp only [View.ld_unit_zero (S := S1024x1024) hz2, View.ld_unit_zero (S := S1024x3072) hz2, View.ld_unit_zero (S := S1x3072) hz2]
  funext y
  obtain ⟨p, j, rfl⟩ : ∃ (p : Fin 1024) (j : Fin 1024), y = ix2 p j := ⟨y 0, y 1, eq_ix2 y⟩
  have hN : cfg0.N = 4 := N_0
  have ht := t.isLt
  have hp := p.isLt
  let r : Fin 4096 := ⟨1024 * t.val + p.val, by omega⟩
  have hr : r.val = 1024 * t.val + p.val := rfl
  rw [View.read_apply, emb0_5 t p j r hr]
  show k0_pay4 (F := Ideal) (iblk0 V c 0 t) (iblk0 V c 1 t) (iblk0 V c 2 t) (ix2 p j) = proj V c col2 (ix2 r j)
  refine (pay4_apply _ _ _ p j).trans ?_
  unfold proj projF
  exact congrArg₂ (· + ·) (Finset.sum_congr rfl fun k _ => congrArg₂ (· * ·) (iblk0_x V c t p k r hr) (iblk0_w V c t k _)) (iblk0_b V c t 0 _)

theorem mem_blk0_5 (t : Fin cfg0.N) (i : S4096x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v5_2).slice (win0_5.rect t)).set ↔ _
  rw [View.set_slice_whole, Rect.mem_set_unit]
  exact Iff.rfl

theorem cover0_5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 4 := N_0
  let t : Fin cfg0.N := ⟨(i 0).val / 1024, by rw [hN]; omega⟩
  have htv : t.val = (i 0).val / 1024 := rfl
  refine ⟨t, flush0_5 t, ?_⟩
  rw [mem_blk0_5]
  obtain ⟨-, -, -, -, -, -, -, -, -, -, e0, e1⟩ := idx0 t
  intro a
  match a with
  | ⟨0, _⟩ => show win0_5.index t (0 : Fin 2) * 1024 ≤ (i 0).val ∧ (i 0).val < win0_5.index t (0 : Fin 2) * 1024 + 1024; rw [e0, htv]; omega
  | ⟨1, _⟩ => show win0_5.index t (1 : Fin 2) * 1024 ≤ (i 1).val ∧ (i 1).val < win0_5.index t (1 : Fin 2) * 1024 + 1024; rw [e1]; omega

/-- The array after the region. -/
theorem final0_5 (c : Dev nD) : (dat0 V c).arrAt 5 cfg0.N = proj V c col2 :=
  (dat0 V c).arrAt_eq_of_cover 5 (proj V c col2) (fun t _ => flushed0_5 V c t) cover0_5

end Cert.KernelIdeal.KVal

end
-- ==== Proof.KVal.Host1.lean ====
/-
  The arrays the second stretch of host operations hands the second kernel, read at an entry.

  The two combining weights are stacked by rows ([1024, 2048] over [2048, 2048]), transposed (and rounded, the identity
  here) and cut into the first and the last 1024 rows: entry (k, c) of the first cut is entry (c, k) of the stack and
  entry (k, c) of the second is entry (c, 1024 + k). For c in the first third of the 3072 columns the stack's row is a row
  of Wl; in the second and last third it is a row of the lower or the upper half of Wa. The two biases are laid end to end
  as one row. What the first kernel left in its three result arrays passes through these operations untouched.
-/
import proofs.«169114_j74363063763252_2_alg».proof.Proof.KVal.Host
import proofs.«169114_j74363063763252_2_alg».proof.Proof.KVal.Arr0

noncomputable section

open scoped BigOperators

namespace Cert.KernelIdeal.KVal

open Cert.KernelIdeal Cert.KernelIdeal.Gen Cert.KernelIdeal.Fr
open Idealize.ShloMosaic Idealize.ShloMosaic.TcCoe Idealize.SL.Sem Idealize.ShloMosaic.StableHlo Idealize.ShloMosaic.ValueIdx
open Cert.LibStackedPieces

variable (m : (ℓ : Loc nD τ sig) → Buf (Elt Ideal) ℓ) (ρ : Dev nD → PrngReg)

/-! ## The first kernel's results reach the second kernel -/

theorem V3_q (c : Dev nD) : @Eq (S4096x1024.Idx → EReal) (V3 m ρ c main_v5_0) (proj (V1 m ρ) c col0) :=
  (W3_of m ρ c main_v5_0 (by decide)).trans ((W2_arr m ρ c 3).trans (final0_3 (V1 m ρ) c))
theorem V3_k (c : Dev nD) : @Eq (S4096x1024.Idx → EReal) (V3 m ρ c main_v5_1) (proj (V1 m ρ) c col1) :=
  (W3_of m ρ c main_v5_1 (by decide)).trans ((W2_arr m ρ c 4).trans (final0_4 (V1 m ρ) c))
theorem V3_v (c : Dev nD) : @Eq (S4096x1024.Idx → EReal) (V3 m ρ c main_v5_2) (proj (V1 m ρ) c col2) :=
  (W3_of m ρ c main_v5_2 (by decide)).trans ((W2_arr m ρ c 5).trans (final0_5 (V1 m ρ) c))

/-- Each of them is a linear layer of the input. -/
theorem proj_q (c : Dev nD) (r : Fin 4096) (j : Fin 1024) :
    proj (V1 m ρ) c col0 (ix2 r j) = Attn.lin (aX m c) (aWq m c) (aBq m c) r j := by
  unfold proj projF Attn.lin
  rw [V1_arg0, V1_v4_col0]
  exact congrArg (· + _) (Finset.sum_congr rfl fun k _ => congrArg (_ * ·) (V1_v2_col0 m ρ c k j))
theorem proj_k (c : Dev nD) (r : Fin 4096) (j : Fin 1024) :
    proj (V1 m ρ) c col1 (ix2 r j) = Attn.lin (aX m c) (aWk m c) (aBk m c) r j := by
  unfold proj projF Attn.lin
  rw [V1_arg0, V1_v4_col1]
  exact congrArg (· + _) (Finset.sum_congr rfl fun k _ => congrArg (_ * ·) (V1_v2_col1 m ρ c k j))
theorem proj_v (c : Dev nD) (r : Fin 4096) (j : Fin 1024) :
    proj (V1 m ρ) c col2 (ix2 r j) = Attn.lin (aX m c) (aWv m c) (aBv m c) r j := by
  unfold proj projF Attn.lin
  rw [V1_arg0, V1_v4_col2]
  exact congrArg (· + _) (Finset.sum_congr rfl fun k _ => congrArg (_ * ·) (V1_v2_col2 m ρ c k j))

/-! ## The arguments pass the first kernel and the first stretch untouched -/

theorem W2_arg7 (c : Dev nD) : @Eq (S1024x2048.Idx → EReal) (W2 m ρ c (Proc.devRef .tc main_arg7)) (aWl m c) :=
  (W2_of_ne m ρ c main_arg7 (by decide)).trans (W1_of m ρ c main_arg7 (by decide))
theorem W2_arg8 (c : Dev nD) : @Eq (S1024.Idx → EReal) (W2 m ρ c (Proc.devRef .tc main_arg8)) (aBl m c) :=
  (W2_of_ne m ρ c main_arg8 (by decide)).trans (W1_of m ρ c main_arg8 (by decide))
theorem W2_arg9 (c : Dev nD) : @Eq (S2048x2048.Idx → EReal) (W2 m ρ c (Proc.devRef .tc main_arg9)) (aWa m c) :=
  (W2_of_ne m ρ c main_arg9 (by decide)).trans (W1_of m ρ c main_arg9 (by decide))
theorem W2_arg10 (c : Dev nD) : @Eq (S2048.Idx → EReal) (W2 m ρ c (Proc.devRef .tc main_arg10)) (aBa m c) :=
  (W2_of_ne m ρ c main_arg10 (by decide)).trans (W1_of m ρ c main_arg10 (by decide))

/-! ## The combining weights and bias as the host operations' terms -/

/-- The two combining weights stacked by rows, and the two biases laid end to end. -/
def wStack (c : Dev nD) : S3072x2048.Idx → EReal :=
  concatenate S3072x2048 0 [⟨S1024x2048, aWl m c⟩, ⟨S2048x2048, aWa m c⟩] concatenates_S1024x2048_S2048x2048_S3072x2048_d0
def bStack (c : Dev nD) : S3072.Idx → EReal :=
  concatenate S3072 0 [⟨S1024, aBl m c⟩, ⟨S2048, aBa m c⟩] concatenates_S1024_S2048_S3072_d0

theorem V3_v9_eq (c : Dev nD) : @Eq (S1024x3072.Idx → EReal) (V3 m ρ c main_v9)
    (extractStridedSlice S1024x3072 ![0, 0] (truncf (F := Ideal) .bf16 (transpose S2048x3072 [1, 0] (wStack m c)
      transposes_S3072x2048_S2048x3072_1_0) bitsLt_bf16_f32) slices_S2048x3072_S1024x3072_0_0) := by
  show StableHlo.after hostOps1 (W2 m ρ c) (Proc.devRef .tc main_v9) = _
  after_results
  rw [W2_arg7, W2_arg9]
  rfl

theorem V3_v10_eq (c : Dev nD) : @Eq (S1024x3072.Idx → EReal) (V3 m ρ c main_v10)
    (extractStridedSlice S1024x3072 ![1024, 0] (truncf (F := Ideal) .bf16 (transpose S2048x3072 [1, 0] (wStack m c)
      transposes_S3072x2048_S2048x3072_1_0) bitsLt_bf16_f32) slices_S2048x3072_S1024x3072_1024_0) := by
  show StableHlo.after hostOps1 (W2 m ρ c) (Proc.devRef .tc main_v10) = _
  after_results
  rw [W2_arg7, W2_arg9]
  rfl

theorem V3_v12_eq (c : Dev nD) : @Eq (S1x3072.Idx → EReal) (V3 m ρ c main_v12)
    (shapeCast S1x3072 (bStack m c) shapeCasts_S3072_S1x3072) := by
  show StableHlo.after hostOps1 (W2 m ρ c) (Proc.devRef .tc main_v12) = _
  after_results
  rw [W2_arg8, W2_arg10]
  rfl

/-- Entry (k, c) of the first cut is entry (c, k) of the stack; of the second, entry (c, 1024 + k). -/
theorem V3_v9_apply (c : Dev nD) (k : Fin 1024) (q : Fin 3072) :
    (V3 m ρ c main_v9 : S1024x3072.Idx → EReal) (ix2 k q) = wStack m c (ix2 q (Attn.lo k)) := by
  rw [V3_v9_eq]
  refine (slice2_axis0_apply 0 _ _ k q (Attn.lo k) (by simp [Attn.lo])).trans ?_
  refine (truncf_apply (ψ := .bf16) (φ := .f32) _ bitsLt_bf16_f32 _).trans ?_
  exact transpose_ix2_apply _ _ (Attn.lo k) q
theorem V3_v10_apply (c : Dev nD) (k : Fin 1024) (q : Fin 3072) :
    (V3 m ρ c main_v10 : S1024x3072.Idx → EReal) (ix2 k q) = wStack m c (ix2 q (Attn.hi k)) := by
  rw [V3_v10_eq]
  refine (slice2_axis0_apply 1024 _ _ k q (Attn.hi k) (by simp [Attn.hi])).trans ?_
  refine (truncf_apply (ψ := .bf16) (φ := .f32) _ bitsLt_bf16_f32 _).trans ?_
  exact transpose_ix2_apply _ _ (Attn.hi k) q
theorem V3_v12_apply (c : Dev nD) (q : Fin 3072) :
    (V3 m ρ c main_v12 : S1x3072.Idx → EReal) (ix2 (0 : Fin 1) q) = bStack m c (ix1 q) := by
  rw [V3_v12_eq]
  exact shapeCast_a_1a_apply _ _ 0 q

/-- The stack's rows: the first 1024 are Wl's, the next 2048 are Wa's. -/
theorem wStack_col0 (c : Dev nD) (j : Fin 1024) (e : Fin 2048) : wStack m c (ix2 (col0 j) e) = aWl m c (ix2 j e) :=
  stack2_rows_0 _ _ _ (col0 j) e j rfl
theorem wStack_col1 (c : Dev nD) (j : Fin 1024) (e : Fin 2048) : wStack m c (ix2 (col1 j) e) = aWa m c (ix2 (Attn.lo j) e) :=
  stack2_rows_1 _ _ _ (col1 j) e (Attn.lo j) rfl
theorem wStack_col2 (c : Dev nD) (j : Fin 1024) (e : Fin 2048) : wStack m c (ix2 (col2 j) e) = aWa m c (ix2 (Attn.hi j) e) :=
  stack2_rows_1 _ _ _ (col2 j) e (Attn.hi j) (by simp [col2, Attn.hi]; omega)
theorem bStack_col0 (c : Dev nD) (j : Fin 1024) : bStack m c (ix1 (col0 j)) = aBl m c (ix1 j) :=
  stack2_vec_0 _ _ _ (col0 j) j rfl
theorem bStack_col1 (c : Dev nD) (j : Fin 1024) : bStack m c (ix1 (col1 j)) = aBa m c (ix1 (Attn.lo j)) :=
  stack2_vec_1 _ _ _ (col1 j) (Attn.lo j) rfl
theorem bStack_col2 (c : Dev nD) (j : Fin 1024) : bStack m c (ix1 (col2 j)) = aBa m c (ix1 (Attn.hi j)) :=
  stack2_vec_1 _ _ _ (col2 j) (Attn.hi j) (by simp [col2, Attn.hi]; omega)

end Cert.KernelIdeal.KVal

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.Consts.lean ====
/-
  The float literals the two programs spell, as the extended reals their bit patterns denote: +0.0 is 0, 1.0 is 1,
  32.0 is 32, 0.03125 is 1/32, and the pattern of -inf is the bottom element.
-/
import Idealize.ShloMosaic.PureOps.Ideal

noncomputable section

namespace Cert.AttnConsts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_32 : Ideal.ofBits .f32 0x42000000#32 = ((32 : ℝ) : EReal) := by
  simp [Ideal.ofBits, Ideal.ieee, -EReal.coe_mul]; norm_num

theorem ofBits_inv32 : Ideal.ofBits .f32 0x3D000000#32 = (((1 / 32 : ℝ) : ℝ) : EReal) := by
  simp [Ideal.ofBits, Ideal.ieee, -EReal.coe_mul]; norm_num

theorem ofBits_neg_inf : Ideal.ofBits .f32 0xFF800000#32 = ⊥ := by
  simp [Ideal.ofBits, Ideal.ieee]

end Cert.AttnConsts

end
-- ==== Proof.KVal.Pay1.lean ====
/-
  The second kernel's store read at an entry, on the extended reals, stage by stage. For row p of the query block:
  the scores against every key row (an inner product scaled by 1/32), their shifted exponentials, the attended row (the
  exp-weighted sum of the value rows over the sum of the exponentials), the 3072 combined outputs (attended row against
  one weight block, query row against the other, plus the bias), and the gated product of the three column thirds.
  (The roundings to bfloat16 on the way into the products are the identity here.)
-/
import proofs.«169114_j74363063763252_2_alg».proof.Proof.Gen.KernelIdeal.Skeleton
import proofs.«169114_j74363063763252_2_alg».proof.Proof.KVal.Pay0
import proofs.«169114_j74363063763252_2_alg».proof.Proof.LibKeepdims
import proofs.«169114_j74363063763252_2_alg».proof.Proof.Spec
import proofs.«169114_j74363063763252_2_alg».proof.Proof.Consts

noncomputable section

open scoped BigOperators

namespace Cert.KernelIdeal.KVal

open Cert.KernelIdeal Cert.KernelIdeal.Gen Idealize.ShloMosaic Idealize.ShloMosaic.ValueIdx

/-! ## The stages of the payload, each a function of the one before -/

/-- The scaled scores of the query block against all keys. -/
def stS (q : FVec Ideal S256x1024 .bf16) (kk : FVec Ideal S4096x1024 .bf16) : FVec Ideal S256x4096 .f32 :=
  mulf (matmul dot_S256x1024_S1024x4096_S256x4096_1_0_0_1_n_n none (shapeCast S256x1024 q shapeCasts_S256x1024_S256x1024)
      (transpose S1024x4096 [1, 0] (shapeCast S4096x1024 kk shapeCasts_S4096x1024_S4096x1024) transposes_S4096x1024_p1_0_S1024x4096)
      (constant S256x4096 .f32 0x00000000#32))
    (broadcast S256x4096 (Scalar.ofBits .f32 0x3D000000#32))

/-- The exponentials of the scores, each row shifted by its maximum. -/
def stP (s : FVec Ideal S256x4096 .f32) : FVec Ideal S256x4096 .f32 :=
  exp (subf s (broadcastTo S256x4096 (shapeCast S256x1 (multiReduction .maximumf [1] S256 s 0xFF800000#32 reduces_S256x4096_S256 (.inl rfl) rfl)
    shapeCasts_S256_S256x1) broadcasts_S256x1_S256x4096))

/-- The attended rows: the exponentials against the values, over the row sums of the exponentials. -/
def stT (pm : FVec Ideal S256x4096 .f32) (v : FVec Ideal S4096x1024 .bf16) : FVec Ideal S256x1024 .f32 :=
  divf (matmul dot_S256x4096_S4096x1024_S256x1024_1_0_0_1_n_n none (truncf .bf16 pm bitsLt_bf16_f32)
      (shapeCast S4096x1024 v shapeCasts_S4096x1024_S4096x1024) (constant S256x1024 .f32 0x00000000#32))
    (broadcastTo S256x1024 (shapeCast S256x1 (multiReduction .add [1] S256 pm 0x00000000#32 reduces_S256x4096_S256 (.inl rfl) rfl)
      shapeCasts_S256_S256x1) broadcasts_S256x1_S256x1024)

/-- The combined outputs: attended rows against one weight block, query rows against the other, plus the bias row. -/
def stY (t : FVec Ideal S256x1024 .f32) (q : FVec Ideal S256x1024 .bf16) (wv wq : FVec Ideal S1024x3072 .bf16)
    (b : FVec Ideal S1x3072 .f32) : FVec Ideal S256x3072 .f32 :=
  addf (addf (matmul dot_S256x1024_S1024x3072_S256x3072_1_0_0_1_n_n none (truncf .bf16 t bitsLt_bf16_f32)
        (shapeCast S1024x3072 wv shapeCasts_S1024x3072_S1024x3072) (constant S256x3072 .f32 0x00000000#32))
      (matmul dot_S256x1024_S1024x3072_S256x3072_1_0_0_1_n_n none (shapeCast S256x1024 q shapeCasts_S256x1024_S256x1024)
        (shapeCast S1024x3072 wq shapeCasts_S1024x3072_S1024x3072) (constant S256x3072 .f32 0x00000000#32)))
    (broadcastTo S256x3072 (shapeCast S1x3072 b shapeCasts_S1x3072_S1x3072) broadcasts_S1x3072_S256x3072)

/-- The gated product of the three column thirds. -/
def stO (y : FVec Ideal S256x3072 .f32) : FVec Ideal S256x1024 .f32 :=
  mulf (extractStridedSlice S256x1024 ![0, 0] y slices_S256x3072_o0_0_S256x1024)
    (mulf (extractStridedSlice S256x1024 ![0, 1024] y slices_S256x3072_o0_1024_S256x1024)
      (logistic (extractStridedSlice S256x1024 ![0, 2048] y slices_S256x3072_o0_2048_S256x1024)))

/-- The payload is the composition of the stages. -/
theorem pay_eq (q : FVec Ideal S256x1024 .bf16) (kk v : FVec Ideal S4096x1024 .bf16) (wv wq : FVec Ideal S1024x3072 .bf16)
    (b : FVec Ideal S1x3072 .f32) :
    k1_pay1 (F := Ideal) q kk v wv wq b = stO (stY (stT (stP (stS q kk)) v) q wv wq b) := rfl

/-! ## Each stage at an entry -/

theorem stS_apply (q : FVec Ideal S256x1024 .bf16) (kk : FVec Ideal S4096x1024 .bf16) (p : Fin 256) (n : Fin 4096) :
    stS q kk (ix2 p n) = Attn.score (fun k => q (ix2 p k)) (fun n k => kk (ix2 n k)) n := by
  unfold stS Attn.score
  refine (mulf_apply _ _ _).trans ?_
  refine congrArg₂ (· * ·) ?_ ?_
  · rw [shapeCast_self, shapeCast_self]
    refine (matmul_zero_apply _ rfl q _ p n).trans ?_
    exact Finset.sum_congr rfl fun c _ => congrArg (q (ix2 p c) * ·) (transpose_ix2_apply kk _ c n)
  · exact Cert.AttnConsts.ofBits_inv32

theorem stP_apply (s : FVec Ideal S256x4096 .f32) (p : Fin 256) (n : Fin 4096) :
    stP s (ix2 p n) = Attn.pexp (fun n => s (ix2 p n)) n := by
  unfold stP Attn.pexp Attn.rowMax
  show Ideal.exp (s (ix2 p n) - broadcastTo S256x4096 _ _ (ix2 p n)) = _
  refine congrArg (fun z => Ideal.exp (s (ix2 p n) - z)) ?_
  refine (broadcastTo_a1_ab_apply _ _ p n).trans ?_
  refine (shapeCast_a_a1_apply _ _ p 0).trans ?_
  refine (multiReduction_maximumf_row s _ _ _ _ p).trans ?_
  rw [Cert.AttnConsts.ofBits_neg_inf]

theorem stT_apply (pm : FVec Ideal S256x4096 .f32) (v : FVec Ideal S4096x1024 .bf16) (p : Fin 256) (k : Fin 1024) :
    stT pm v (ix2 p k) = Ideal.div (∑ n : Fin 4096, pm (ix2 p n) * v (ix2 n k)) (∑ n : Fin 4096, pm (ix2 p n)) := by
  unfold stT
  refine (divf_apply _ _ _).trans ?_
  refine congrArg₂ Ideal.div ?_ ?_
  · rw [shapeCast_self]
    exact matmul_zero_apply _ rfl (truncf .bf16 pm bitsLt_bf16_f32) v p k
  · refine (broadcastTo_a1_ab_apply _ _ p k).trans ?_
    refine (shapeCast_a_a1_apply _ _ p 0).trans ?_
    exact multiReduction_add_row pm _ _ _ _ p

/-- One combined output of a row: the attended row and the query row against column `c` of the two weight blocks, plus the bias. -/
def ycol (a qr : Fin 1024 → EReal) (wv wq : FVec Ideal S1024x3072 .bf16) (b : FVec Ideal S1x3072 .f32) (c : Fin 3072) : EReal :=
  (∑ k : Fin 1024, a k * wv (ix2 k c)) + (∑ k : Fin 1024, qr k * wq (ix2 k c)) + b (ix2 (0 : Fin 1) c)

theorem stY_apply (t : FVec Ideal S256x1024 .f32) (q : FVec Ideal S256x1024 .bf16) (wv wq : FVec Ideal S1024x3072 .bf16)
    (b : FVec Ideal S1x3072 .f32) (p : Fin 256) (c : Fin 3072) :
    stY t q wv wq b (ix2 p c) = ycol (fun k => t (ix2 p k)) (fun k => q (ix2 p k)) wv wq b c := by
  unfold stY ycol
  refine (addf_apply _ _ _).trans ?_
  refine congrArg₂ (· + ·) ?_ ?_
  · refine (addf_apply _ _ _).trans ?_
    refine congrArg₂ (· + ·) ?_ ?_
    · rw [shapeCast_self]
      exact matmul_zero_apply _ rfl (truncf .bf16 t bitsLt_bf16_f32) wv p c
    · rw [shapeCast_self, shapeCast_self]
      exact matmul_zero_apply _ rfl q wq p c
  · rw [shapeCast_self]
    exact broadcastTo_1b_ab_apply b _ p c

theorem stO_apply (y : FVec Ideal S256x3072 .f32) (p : Fin 256) (j : Fin 1024) :
    stO y (ix2 p j) = Attn.gate (y (ix2 p (col0 j))) (y (ix2 p (col1 j))) (y (ix2 p (col2 j))) := by
  unfold stO Attn.gate
  refine (mulf_apply _ _ _).trans ?_
  refine congrArg₂ (· * ·) (slice2_axis1_apply 0 y _ p j (col0 j) (by simp [col0])) ?_
  refine (mulf_apply _ _ _).trans ?_
  refine congrArg₂ (· * ·) (slice2_axis1_apply 1024 y _ p j (col1 j) (by simp [col1])) ?_
  show Ideal.logistic (extractStridedSlice S256x1024 ![0, 2048] y _ (ix2 p j)) = _
  exact congrArg Ideal.logistic (slice2_axis1_apply 2048 y _ p j (col2 j) (by simp [col2]))

/-! ## The payload at an entry -/

/-- Row p of the query block, and the attended row it gives against the keys and values. -/
def qrow (q : FVec Ideal S256x1024 .bf16) (p : Fin 256) : Fin 1024 → EReal := fun k => q (ix2 p k)
def arow (q : FVec Ideal S256x1024 .bf16) (kk v : FVec Ideal S4096x1024 .bf16) (p : Fin 256) : Fin 1024 → EReal :=
  Attn.attend (Attn.score (qrow q p) (fun n k => kk (ix2 n k))) (fun n k => v (ix2 n k))

theorem attended_apply (q : FVec Ideal S256x1024 .bf16) (kk v : FVec Ideal S4096x1024 .bf16) (p : Fin 256) (k : Fin 1024) :
    stT (stP (stS q kk)) v (ix2 p k) = arow q kk v p k := by
  rw [stT_apply]
  unfold arow Attn.attend Attn.rowSum qrow
  simp only [stP_apply, stS_apply]

theorem pay_apply (q : FVec Ideal S256x1024 .bf16) (kk v : FVec Ideal S4096x1024 .bf16) (wv wq : FVec Ideal S1024x3072 .bf16)
    (b : FVec Ideal S1x3072 .f32) (p : Fin 256) (j : Fin 1024) :
    k1_pay1 (F := Ideal) q kk v wv wq b (ix2 p j)
      = Attn.gate (ycol (arow q kk v p) (qrow q p) wv wq b (col0 j)) (ycol (arow q kk v p) (qrow q p) wv wq b (col1 j))
          (ycol (arow q kk v p) (qrow q p) wv wq b (col2 j)) := by
  rw [pay_eq, stO_apply, stY_apply, stY_apply, stY_apply]
  have ha : (fun k => stT (stP (stS q kk)) v (ix2 p k)) = arow q kk v p := funext fun k => attended_apply q kk v p k
  rw [ha]
  rfl

end Cert.KernelIdeal.KVal

end
-- ==== Proof.KVal.Arr1.lean ====
/-
  What the second kernel leaves in the result array, as a whole-array function of the arrays the region finds. Grid point
  t stages rows [256 t, 256 t + 256) of Q and the whole of K, V, the two weight blocks and the bias row, and writes back
  rows [256 t, 256 t + 256) of the result; the sixteen points' blocks cover the 4096 rows. So row r of the result is the
  gated combination of the attended row and the query row of row r of Q.
-/
import proofs.«169114_j74363063763252_2_alg».proof.Proof.KI.Run
import proofs.«169114_j74363063763252_2_alg».proof.Proof.KVal.Pay1
import proofs.«169114_j74363063763252_2_alg».proof.Proof.KVal.Arr0
import Idealize.ShloMosaic.Lib.Pipeline.Value
import Idealize.ShloMosaic.Lib.Tactic

noncomputable section

open scoped BigOperators

namespace Cert.KernelIdeal.KVal

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps over the grid: Q and the result move one block of rows per point, everything else stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! ## The input blocks as the arrays -/

theorem iblk1_q (c : Dev nD) (t : Fin cfg1.N) (p : Fin 256) (k : Fin 1024) (r : Fin 4096) (hr : r.val = 256 * t.val + p.val) :
    (iblk1 V c 0 t : FVec Ideal S256x1024 .bf16) (ix2 p k) = (V c main_v5_0 : S4096x1024.Idx → EReal) (ix2 r k) := by
  obtain ⟨e0, e1, -, -, -, -, -, -, -, -, -, -, -, -⟩ := idx1 t
  unfold iblk1
  rw [View.read_apply]
  show (V c main_v5_0 : S4096x1024.Idx → EReal) _ = _
  refine congrArg _ (funext fun a => Fin.ext ?_)
  match a with
  | ⟨0, _⟩ => show win1_0.index t (0 : Fin 2) * 256 + 1 * p.val = r.val; rw [e0, hr]; omega
  | ⟨1, _⟩ => show win1_0.index t (1 : Fin 2) * 1024 + 1 * k.val = k.val; rw [e1]; omega

theorem iblk1_k (c : Dev nD) (t : Fin cfg1.N) : @Eq (S4096x1024.Idx → EReal) (iblk1 V c 1 t) (V c main_v5_1) := by
  obtain ⟨-, -, e0, e1, -, -, -, -, -, -, -, -, -, -⟩ := idx1 t
  funext y
  obtain ⟨a, b, rfl⟩ : ∃ (a : Fin 4096) (b : Fin 1024), y = ix2 a b := ⟨y 0, y 1, eq_ix2 y⟩
  unfold iblk1
  rw [View.read_apply]
  show (V c main_v5_1 : S4096x1024.Idx → EReal) _ = _
  refine congrArg _ (funext fun ax => Fin.ext ?_)
  match ax with
  | ⟨0, _⟩ => show win1_1.index t (0 : Fin 2) * 4096 + 1 * a.val = a.val; rw [e0]; omega
  | ⟨1, _⟩ => show win1_1.index t (1 : Fin 2) * 1024 + 1 * b.val = b.val; rw [e1]; omega
theorem iblk1_v (c : Dev nD) (t : Fin cfg1.N) : @Eq (S4096x1024.Idx → EReal) (iblk1 V c 2 t) (V c main_v5_2) := by
  obtain ⟨-, -, -, -, e0, e1, -, -, -, -, -, -, -, -⟩ := idx1 t
  funext y
  obtain ⟨a, b, rfl⟩ : ∃ (a : Fin 4096) (b : Fin 1024), y = ix2 a b := ⟨y 0, y 1, eq_ix2 y⟩
  unfold iblk1
  rw [View.read_apply]
  show (V c main_v5_2 : S4096x1024.Idx → EReal) _ = _
  refine congrArg _ (funext fun ax => Fin.ext ?_)
  match ax with
  | ⟨0, _⟩ => show win1_2.index t (0 : Fin 2) * 4096 + 1 * a.val = a.val; rw [e0]; omega
  | ⟨1, _⟩ => show win1_2.index t (1 : Fin 2) * 1024 + 1 * b.val = b.val; rw [e1]; omega
theorem iblk1_wv (c : Dev nD) (t : Fin cfg1.N) : @Eq (S1024x3072.Idx → EReal) (iblk1 V c 3 t) (V c main_v9) := by
  obtain ⟨-, -, -, -, -, -, e0, e1, -, -, -, -, -, -⟩ := idx1 t
  funext y
  obtain ⟨a, b, rfl⟩ : ∃ (a : Fin 1024) (b : Fin 3072), y = ix2 a b := ⟨y 0, y 1, eq_ix2 y⟩
  unfold iblk1
  rw [View.read_apply]
  show (V c main_v9 : S1024x3072.Idx → EReal) _ = _
  refine congrArg _ (funext fun ax => Fin.ext ?_)
  match ax with
  | ⟨0, _⟩ => show win1_3.index t (0 : Fin 2) * 1024 + 1 * a.val = a.val; rw [e0]; omega
  | ⟨1, _⟩ => show win1_3.index t (1 : Fin 2) * 3072 + 1 * b.val = b.val; rw [e1]; omega
theorem iblk1_wq (c : Dev nD) (t : Fin cfg1.N) : @Eq (S1024x3072.Idx → EReal) (iblk1 V c 4 t) (V c main_v10) := by
  obtain ⟨-, -, -, -, -, -, -, -, e0, e1, -, -, -, -⟩ := idx1 t
  funext y
  obtain ⟨a, b, rfl⟩ : ∃ (a : Fin 1024) (b : Fin 3072), y = ix2 a b := ⟨y 0, y 1, eq_ix2 y⟩
  unfold iblk1
  rw [View.read_apply]
  show (V c main_v10 : S1024x3072.Idx → EReal) _ = _
  refine congrArg _ (funext fun ax => Fin.ext ?_)
  match ax with
  | ⟨0, _⟩ => show win1_4.index t (0 : Fin 2) * 1024 + 1 * a.val = a.val; rw [e0]; omega
  | ⟨1, _⟩ => show win1_4.index t (1 : Fin 2) * 3072 + 1 * b.val = b.val; rw [e1]; omega
theorem iblk1_b (c : Dev nD) (t : Fin cfg1.N) : @Eq (S1x3072.Idx → EReal) (iblk1 V c 5 t) (V c main_v12) := by
  obtain ⟨-, -, -, -, -, -, -, -, -, -, e0, e1, -, -⟩ := idx1 t
  funext y
  obtain ⟨a, b, rfl⟩ : ∃ (a : Fin 1) (b : Fin 3072), y = ix2 a b := ⟨y 0, y 1, eq_ix2 y⟩
  unfold iblk1
  rw [View.read_apply]
  show (V c main_v12 : S1x3072.Idx → EReal) _ = _
  refine congrArg _ (funext fun ax => Fin.ext ?_)
  match ax with
  | ⟨0, _⟩ => show win1_5.index t (0 : Fin 2) * 1 + 1 * a.val = a.val; rw [e0]; omega
  | ⟨1, _⟩ => show win1_5.index t (1 : Fin 2) * 3072 + 1 * b.val = b.val; rw [e1]; omega

/-! ## The result array as one function -/

/-- Row `i 0`, column `i 1` of the result from Q, K, V, the two weight blocks and the bias row. -/
def attnF (Q K Vv : S4096x1024.Idx → EReal) (Wv Wq : S1024x3072.Idx → EReal) (B : S1x3072.Idx → EReal) : S4096x1024.Idx → EReal := fun i =>
  let qr : Fin 1024 → EReal := fun k => Q (ix2 (i 0) k)
  let a := Attn.attend (Attn.score qr (fun n k => K (ix2 n k))) (fun n k => Vv (ix2 n k))
  Attn.gate (ycol a qr Wv Wq B (col0 (i 1))) (ycol a qr Wv Wq B (col1 (i 1))) (ycol a qr Wv Wq B (col2 (i 1)))
def attnOut (c : Dev nD) : S4096x1024.Idx → EReal :=
  attnF (V c main_v5_0) (V c main_v5_1) (V c main_v5_2) (V c main_v9) (V c main_v10) (V c main_v12)

theorem emb1_6 (t : Fin cfg1.N) (p : Fin 256) (j : Fin 1024) (r : Fin 4096) (hr : r.val = 256 * t.val + p.val) :
    ((cfg1.win 6).blk t).view.emb (ix2 p j) = (ix2 r j : S4096x1024.Idx) := by
  obtain ⟨-, -, -, -, -, -, -, -, -, -, -, -, e0, e1⟩ := idx1 t
  funext a; apply Fin.ext
  match a with
  | ⟨0, _⟩ => show win1_6.index t (0 : Fin 2) * 256 + 1 * p.val = r.val; rw [e0, hr]; omega
  | ⟨1, _⟩ => show win1_6.index t (1 : Fin 2) * 1024 + 1 * j.val = j.val; rw [e1]; omega

/-- What point `t` writes back is block `t` of the result's function. -/
theorem flushed1_6 (c : Dev nD) (t : Fin cfg1.N) :
    (dat1 V c).flushed 6 t = ((cfg1.win 6).blk t).view.read (Elt Ideal) (attnOut V c) := by
  show (cfg1.win 6).cut (grid1.coords t) ((dat1 V c).after 6 t) = _
  rw [after1_6]
  unfold out1_6
  rw [View.canon_unit_zero hz2]
  simp only [View.ld_unit_zero (S := S256x1024) hz2, View.ld_unit_zero (S := S4096x1024) hz2, View.ld_unit_zero (S := S1024x3072) hz2, View.ld_unit_zero (S := S1x3072) hz2]
  funext y
  obtain ⟨p, j, rfl⟩ : ∃ (p : Fin 256) (j : Fin 1024), y = ix2 p j := ⟨y 0, y 1, eq_ix2 y⟩
  have hN : cfg1.N = 16 := N_1
  have ht := t.isLt
  have hp := p.isLt
  let r : Fin 4096 := ⟨256 * t.val + p.val, by omega⟩
  have hr : r.val = 256 * t.val + p.val := rfl
  rw [View.read_apply, emb1_6 t p j r hr]
  show k1_pay1 (F := Ideal) (iblk1 V c 0 t) (iblk1 V c 1 t) (iblk1 V c 2 t) (iblk1 V c 3 t) (iblk1 V c 4 t) (iblk1 V c 5 t) (ix2 p j) = attnOut V c (ix2 r j)
  rw [iblk1_k, iblk1_v, iblk1_wv, iblk1_wq, iblk1_b]
  refine (pay_apply _ _ _ _ _ _ p j).trans ?_
  have hq : qrow (iblk1 V c 0 t) p = fun k => (V c main_v5_0 : S4096x1024.Idx → EReal) (ix2 r k) := funext fun k => iblk1_q V c t p k r hr
  unfold attnOut attnF arow
  rw [hq]

theorem mem_blk1_6 (t : Fin cfg1.N) (i : S4096x1024.Idx) :
    i ∈ ((cfg1.win 6).blk t).view.set ↔ ∀ a : Fin 2, win1_6.index t a * S256x1024.size a ≤ (i a).val ∧ (i a).val < win1_6.index t a * S256x1024.size a + S256x1024.size a := by
  show i ∈ ((View.whole main_v13).slice (win1_6.rect t)).set ↔ _
  rw [View.set_slice_whole, Rect.mem_set_unit]
  exact Iff.rfl

theorem cover1_6 (i : S4096x1024.Idx) : ∃ t : Fin cfg1.N, (cfg1.win 6).flush t = true ∧ i ∈ ((cfg1.win 6).blk t).view.set := by
  have hi0 : (i 0).val < 4096 := (i 0).isLt
  have hi1 : (i 1).val < 1024 := (i 1).isLt
  have hN : cfg1.N = 16 := N_1
  let t : Fin cfg1.N := ⟨(i 0).val / 256, by rw [hN]; omega⟩
  have htv : t.val = (i 0).val / 256 := rfl
  refine ⟨t, flush1_6 t, ?_⟩
  rw [mem_blk1_6]
  obtain ⟨-, -, -, -, -, -, -, -, -, -, -, -, e0, e1⟩ := idx1 t
  intro a
  match a with
  | ⟨0, _⟩ => show win1_6.index t (0 : Fin 2) * 256 ≤ (i 0).val ∧ (i 0).val < win1_6.index t (0 : Fin 2) * 256 + 256; rw [e0, htv]; omega
  | ⟨1, _⟩ => show win1_6.index t (1 : Fin 2) * 1024 ≤ (i 1).val ∧ (i 1).val < win1_6.index t (1 : Fin 2) * 1024 + 1024; rw [e1]; omega

/-- The result array after the region. -/
theorem final1_6 (c : Dev nD) : (dat1 V c).arrAt 6 cfg1.N = attnOut V c :=
  (dat1 V c).arrAt_eq_of_cover 6 (attnOut V c) (fun t _ => flushed1_6 V c t) cover1_6

end Cert.KernelIdeal.KVal

end
-- ==== Proof.KVal.Final.lean ====
/-
  The kernel's result array is the specified function of the eleven argument arrays: what the second kernel leaves, read
  through the host operations before it and through what the first kernel left.
-/
import proofs.«169114_j74363063763252_2_alg».proof.Proof.KVal.Host1
import proofs.«169114_j74363063763252_2_alg».proof.Proof.KVal.Arr1

noncomputable section

open scoped BigOperators

namespace Cert.KernelIdeal.KVal

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (ρ : Dev nD → PrngReg)

/-- The second kernel's function and the specification, at row r and column j. -/
theorem attnF_apply (Q K Vv : S4096x1024.Idx → EReal) (Wv Wq : S1024x3072.Idx → EReal) (B : S1x3072.Idx → EReal) (r : Fin 4096) (j : Fin 1024) :
    attnF Q K Vv Wv Wq B (ix2 r j)
      = Attn.gate
          (ycol (Attn.attend (Attn.score (fun k => Q (ix2 r k)) (fun n k => K (ix2 n k))) (fun n k => Vv (ix2 n k))) (fun k => Q (ix2 r k)) Wv Wq B (col0 j))
          (ycol (Attn.attend (Attn.score (fun k => Q (ix2 r k)) (fun n k => K (ix2 n k))) (fun n k => Vv (ix2 n k))) (fun k => Q (ix2 r k)) Wv Wq B (col1 j))
          (ycol (Attn.attend (Attn.score (fun k => Q (ix2 r k)) (fun n k => K (ix2 n k))) (fun n k => Vv (ix2 n k))) (fun k => Q (ix2 r k)) Wv Wq B (col2 j)) := rfl

theorem out_apply (x : Attn.Mat 4096 1024) (Wq : Attn.Mat 1024 1024) (bq : Attn.Vc 1024) (Wk : Attn.Mat 1024 1024) (bk : Attn.Vc 1024)
    (Wv : Attn.Mat 1024 1024) (bv : Attn.Vc 1024) (Wl : Attn.Mat 1024 2048) (bl : Attn.Vc 1024) (Wa : Attn.Mat 2048 2048) (ba : Attn.Vc 2048)
    (r : Fin 4096) (j : Fin 1024) :
    Attn.out x Wq bq Wk bk Wv bv Wl bl Wa ba (ix2 r j)
      = Attn.gate
          (Attn.comb (Attn.attend (Attn.score (Attn.lin x Wq bq r) (Attn.lin x Wk bk)) (Attn.lin x Wv bv)) (Attn.lin x Wq bq r) (fun k => Wl (ix2 j k)) (bl (ix1 j)))
          (Attn.comb (Attn.attend (Attn.score (Attn.lin x Wq bq r) (Attn.lin x Wk bk)) (Attn.lin x Wv bv)) (Attn.lin x Wq bq r) (fun k => Wa (ix2 (Attn.lo j) k)) (ba (ix1 (Attn.lo j))))
          (Attn.comb (Attn.attend (Attn.score (Attn.lin x Wq bq r) (Attn.lin x Wk bk)) (Attn.lin x Wv bv)) (Attn.lin x Wq bq r) (fun k => Wa (ix2 (Attn.hi j) k)) (ba (ix1 (Attn.hi j)))) := rfl

/-- One combined output, read through the second stretch of host operations: the attended row and the query row against a
    row of Wl, of the lower half of Wa, or of its upper half. -/
theorem ycol_col0 (c : Dev nD) (a qr : Fin 1024 → EReal) (j : Fin 1024) :
    ycol a qr (V3 m ρ c main_v9) (V3 m ρ c main_v10) (V3 m ρ c main_v12) (col0 j)
      = Attn.comb a qr (fun e => aWl m c (ix2 j e)) (aBl m c (ix1 j)) := by
  unfold ycol Attn.comb
  refine congrArg₂ (· + ·) (congrArg₂ (· + ·) (Finset.sum_congr rfl fun k _ => congrArg (a k * ·) ?_)
    (Finset.sum_congr rfl fun k _ => congrArg (qr k * ·) ?_)) ?_
  · exact (V3_v9_apply m ρ c k (col0 j)).trans (wStack_col0 m c j (Attn.lo k))
  · exact (V3_v10_apply m ρ c k (col0 j)).trans (wStack_col0 m c j (Attn.hi k))
  · exact (V3_v12_apply m ρ c (col0 j)).trans (bStack_col0 m c j)
theorem ycol_col1 (c : Dev nD) (a qr : Fin 1024 → EReal) (j : Fin 1024) :
    ycol a qr (V3 m ρ c main_v9) (V3 m ρ c main_v10) (V3 m ρ c main_v12) (col1 j)
      = Attn.comb a qr (fun e => aWa m c (ix2 (Attn.lo j) e)) (aBa m c (ix1 (Attn.lo j))) := by
  unfold ycol Attn.comb
  refine congrArg₂ (· + ·) (congrArg₂ (· + ·) (Finset.sum_congr rfl fun k _ => congrArg (a k * ·) ?_)
    (Finset.sum_congr rfl fun k _ => congrArg (qr k * ·) ?_)) ?_
  · exact (V3_v9_apply m ρ c k (col1 j)).trans (wStack_col1 m c j (Attn.lo k))
  · exact (V3_v10_apply m ρ c k (col1 j)).trans (wStack_col1 m c j (Attn.hi k))
  · exact (V3_v12_apply m ρ c (col1 j)).trans (bStack_col1 m c j)
theorem ycol_col2 (c : Dev nD) (a qr : Fin 1024 → EReal) (j : Fin 1024) :
    ycol a qr (V3 m ρ c main_v9) (V3 m ρ c main_v10) (V3 m ρ c main_v12) (col2 j)
      = Attn.comb a qr (fun e => aWa m c (ix2 (Attn.hi j) e)) (aBa m c (ix1 (Attn.hi j))) := by
  unfold ycol Attn.comb
  refine congrArg₂ (· + ·) (congrArg₂ (· + ·) (Finset.sum_congr rfl fun k _ => congrArg (a k * ·) ?_)
    (Finset.sum_congr rfl fun k _ => congrArg (qr k * ·) ?_)) ?_
  · exact (V3_v9_apply m ρ c k (col2 j)).trans (wStack_col2 m c j (Attn.lo k))
  · exact (V3_v10_apply m ρ c k (col2 j)).trans (wStack_col2 m c j (Attn.hi k))
  · exact (V3_v12_apply m ρ c (col2 j)).trans (bStack_col2 m c j)

/-- THE KERNEL'S VALUE: the result array after the run is the specified function of the arguments. -/
theorem kernel_value (c : Dev nD) : @Eq (S4096x1024.Idx → EReal) ((dat1 (V3 m ρ) c).arrAt 6 cfg1.N)
    (Attn.out (aX m c) (aWq m c) (aBq m c) (aWk m c) (aBk m c) (aWv m c) (aBv m c) (aWl m c) (aBl m c) (aWa m c) (aBa m c)) := by
  rw [final1_6]
  funext i
  obtain ⟨r, j, rfl⟩ : ∃ (r : Fin 4096) (j : Fin 1024), i = ix2 r j := ⟨i 0, i 1, eq_ix2 i⟩
  have hq : (fun k => (V3 m ρ c main_v5_0 : S4096x1024.Idx → EReal) (ix2 r k)) = Attn.lin (aX m c) (aWq m c) (aBq m c) r :=
    funext fun k => by rw [V3_q]; exact proj_q m ρ c r k
  have hk : (fun n k => (V3 m ρ c main_v5_1 : S4096x1024.Idx → EReal) (ix2 n k)) = Attn.lin (aX m c) (aWk m c) (aBk m c) :=
    funext fun n => funext fun k => by rw [V3_k]; exact proj_k m ρ c n k
  have hv : (fun n k => (V3 m ρ c main_v5_2 : S4096x1024.Idx → EReal) (ix2 n k)) = Attn.lin (aX m c) (aWv m c) (aBv m c) :=
    funext fun n => funext fun k => by rw [V3_v]; exact proj_v m ρ c n k
  unfold attnOut
  rw [attnF_apply, out_apply, hq, hk, hv, ycol_col0, ycol_col1, ycol_col2]

end Cert.KernelIdeal.KVal

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibSoftmaxNorm.lean ====
/-
  A softmax-weighted sum on the extended reals: normalizing every weight, or normalizing the weighted sum once.

  For scores s over a finite nonempty index set, with M the fold of max from -inf over the scores, the weights
  exp(s n - M) are positive reals when the scores are real (M is then one of the scores), and so is their sum l. On reals
  with l ≠ 0, Σ_n (p n / l) · v n = (Σ_n p n · v n) / l: both are the real (Σ p·v)/l. The field laws used here fail at
  the infinities, which is why every hypothesis says "is a real number". Also here: the extended-real image of a finite
  real sum is the sum of the images, and a fold of max from -inf over a nonempty finite family is one of its members.
  Generic in the index type.
-/
import proofs.«169114_j74363063763252_2_alg».proof.Proof.LibRealClosed

noncomputable section

open scoped BigOperators

namespace Cert.LibSoftmaxNorm

open Idealize.ShloMosaic Cert.LibRealClosed

/-- The extended-real image of a finite real sum is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing every weight by a nonzero real normalizer, or the weighted sum once, is the same on reals. -/
theorem norm_swap {ι : Type*} [Fintype ι] (p v : ι → EReal) (l : EReal) (hp : ∀ n, IsReal (p n)) (hv : ∀ n, IsReal (v n))
    (hl : IsReal l) (hl0 : l ≠ 0) :
    ∑ n, Ideal.div (p n) l * v n = Ideal.div (∑ n, p n * v n) l := by
  obtain ⟨lr, rfl⟩ := hl
  have hlr : lr ≠ 0 := fun h => hl0 (by rw [h]; rfl)
  choose pr hpr using hp
  choose vr hvr using hv
  simp only [Ideal.div_coe hlr, hpr, hvr, ← EReal.coe_mul, ← coe_sum]
  refine congrArg (fun z : ℝ => (z : EReal)) ?_
  rw [Finset.sum_mul]
  exact Finset.sum_congr rfl fun n _ => by ring

/-- A fold of max from -inf over a nonempty finite family is one of the family's members. -/
theorem fold_max_mem {ι : Type*} [DecidableEq ι] (s : ι → EReal) (t : Finset ι) (ht : t.Nonempty) :
    ∃ i ∈ t, t.fold max ⊥ s = s i := by
  induction t using Finset.induction_on with
  | empty => exact absurd ht Finset.not_nonempty_empty
  | insert a t ha ih =>
    rw [Finset.fold_insert ha]
    rcases t.eq_empty_or_nonempty with rfl | hne
    · exact ⟨a, Finset.mem_insert_self _ _, by rw [Finset.fold_empty]; exact max_eq_left bot_le⟩
    · obtain ⟨i, hi, e⟩ := ih hne
      rw [e]
      rcases le_total (s a) (s i) with h | h
      · exact ⟨i, Finset.mem_insert_of_mem hi, max_eq_right h⟩
      · exact ⟨a, Finset.mem_insert_self _ _, max_eq_left h⟩

variable {ι : Type*} [Fintype ι] [DecidableEq ι] [Nonempty ι]

/-- The maximum of real scores is real. -/
theorem max_real (s : ι → EReal) (hs : ∀ n, IsReal (s n)) : IsReal (Finset.univ.fold max (⊥ : EReal) s) := by
  obtain ⟨i, -, e⟩ := fold_max_mem s Finset.univ Finset.univ_nonempty
  rw [e]
  exact hs i

/-- Each shifted exponential of real scores is a positive real. -/
theorem exp_shift_pos_real (s : ι → EReal) (hs : ∀ n, IsReal (s n)) (n : ι) :
    ∃ r : ℝ, 0 < r ∧ Ideal.exp (s n - Finset.univ.fold max (⊥ : EReal) s) = (r : EReal) := by
  obtain ⟨m, hm⟩ := max_real s hs
  obtain ⟨a, ha⟩ := hs n
  refine ⟨Real.exp (a - m), Real.exp_pos _, ?_⟩
  rw [hm, ha, ← EReal.coe_sub]
  rfl

/-- The sum of the shifted exponentials is a real other than zero. -/
theorem sum_exp_shift_real (s : ι → EReal) (hs : ∀ n, IsReal (s n)) :
    IsReal (∑ n, Ideal.exp (s n - Finset.univ.fold max (⊥ : EReal) s))
      ∧ (∑ n, Ideal.exp (s n - Finset.univ.fold max (⊥ : EReal) s)) ≠ 0 := by
  choose pr hpos hpr using exp_shift_pos_real s hs
  simp only [hpr, ← coe_sum]
  have hpos' : 0 < ∑ n, pr n := Finset.sum_pos (fun n _ => hpos n) Finset.univ_nonempty
  refine ⟨⟨_, rfl⟩, fun h => ?_⟩
  have := EReal.coe_eq_zero.mp h
  linarith

/-- The softmax-weighted sum of reals: each weight normalized first, or the weighted sum normalized once. -/
theorem softmax_weighted (s v : ι → EReal) (hs : ∀ n, IsReal (s n)) (hv : ∀ n, IsReal (v n)) :
    ∑ n, Ideal.div (Ideal.exp (s n - Finset.univ.fold max (⊥ : EReal) s)) (∑ n', Ideal.exp (s n' - Finset.univ.fold max (⊥ : EReal) s)) * v n
      = Ideal.div (∑ n, Ideal.exp (s n - Finset.univ.fold max (⊥ : EReal) s) * v n) (∑ n', Ideal.exp (s n' - Finset.univ.fold max (⊥ : EReal) s)) := by
  obtain ⟨hl, hl0⟩ := sum_exp_shift_real s hs
  exact norm_swap _ _ _ (fun n => by obtain ⟨r, -, h⟩ := exp_shift_pos_real s hs n; exact ⟨r, h⟩) hv hl hl0

end Cert.LibSoftmaxNorm

end
-- ==== Proof.Math.lean ====
/-
  The algebra that joins the two programs, on the extended reals.

  The kernel divides the exp-weighted sum of the value rows by the row's normalizer once; the reference divides each
  weight first. The two agree when the scores and the values are reals: then both are the real (Σ p·v)/l, the weights
  p being positive reals and l their sum. The scores are real because they are finite sums of products of reals. The
  contraction over 2048 coordinates splits into its two halves of 1024 in any commutative monoid.
-/
import proofs.«169114_j74363063763252_2_alg».proof.Proof.Spec
import proofs.«169114_j74363063763252_2_alg».proof.Proof.LibRealClosed
import proofs.«169114_j74363063763252_2_alg».proof.Proof.LibSoftmaxNorm

noncomputable section

open scoped BigOperators

namespace Cert.Attn

open Idealize.ShloMosaic Idealize.ShloMosaic.ValueIdx Cert.LibRealClosed

/-- A sum over 2048 coordinates is the sum over the lower half plus the sum over the upper half. -/
theorem sum_lo_hi {M : Type*} [AddCommMonoid M] (f : Fin 2048 → M) :
    ∑ e, f e = ∑ k : Fin 1024, f (lo k) + ∑ k : Fin 1024, f (hi k) := by
  have hh : 1024 + 1024 = 2048 := by norm_num
  have h2 : ∑ e, f e = ∑ i : Fin (1024 + 1024), f (finCongr hh i) := (Equiv.sum_comp (finCongr hh) f).symm
  rw [h2, Fin.sum_univ_add]
  rfl

/-- The reference's attended entry (each weight normalized first) is the kernel's (the weighted sum normalized once). -/
theorem attend_ref (s : Fin 4096 → EReal) (V : Fin 4096 → Fin 1024 → EReal) (hs : ∀ n, IsReal (s n))
    (hV : ∀ n k, IsReal (V n k)) (k : Fin 1024) :
    ∑ n, Ideal.div (pexp s n) (rowSum s) * V n k = attend s V k :=
  Cert.LibSoftmaxNorm.softmax_weighted s (fun n => V n k) hs (fun n => hV n k)

/-- A linear layer of reals is real, and so are the scores of real rows. -/
theorem lin_real (x : Mat 4096 1024) (W : Mat 1024 1024) (b : Vc 1024) (hx : ∀ i, IsReal (x i)) (hW : ∀ i, IsReal (W i))
    (hb : ∀ i, IsReal (b i)) (r : Fin 4096) (j : Fin 1024) : IsReal (lin x W b r j) := by
  unfold lin
  exact (IsReal.sum _ _ fun k _ => (hx _).mul (hW _)).add (hb _)

theorem score_real (q : Fin 1024 → EReal) (K : Fin 4096 → Fin 1024 → EReal) (hq : ∀ k, IsReal (q k)) (hK : ∀ n k, IsReal (K n k))
    (n : Fin 4096) : IsReal (score q K n) := by
  unfold score
  exact (IsReal.sum _ _ fun k _ => (hq k).mul (hK n k)).mul (IsReal.coe _)

end Cert.Attn

end
-- ==== Proof.RefVal.lean ====
/-
  The reference program's result read at an entry, on the extended reals, stage by stage: the three linear layers, the
  scaled scores, the row maximum, the shifted exponentials and their row sums, the normalized weights against the value
  rows, the concatenation [attended row, Q row], the two combining layers with the contraction over 2048 split into its
  halves, and the gated product. With every entry of the first seven arguments a real, the normalized-weights form of the
  attended row is the specification's (the weighted sum normalized once), and the result is the specified function.
-/
import proofs.«169114_j74363063763252_2_alg».proof.Proof.RefRead
import proofs.«169114_j74363063763252_2_alg».proof.Proof.Spec
import proofs.«169114_j74363063763252_2_alg».proof.Proof.Consts
import proofs.«169114_j74363063763252_2_alg».proof.Proof.Math
import proofs.«169114_j74363063763252_2_alg».proof.Proof.LibKeepdims
import Idealize.ShloMosaic.Lib.Pipeline.Value
import Idealize.ShloMosaic.Lib.ValueLayout
import Idealize.ShloMosaic.PureOps.Ideal.Laws

noncomputable section

open scoped BigOperators

namespace Cert.ReferenceIdeal.RefVal

open Cert.ReferenceIdeal Cert.ReferenceIdeal.Gen Cert.ReferenceIdeal.Read Idealize.ShloMosaic Idealize.ShloMosaic.ValueIdx Cert.Attn Cert.LibRealClosed

/-- Two indices with equal coordinates are equal (rank 2, rank 1). -/
macro "ixeq2" : tactic => `(tactic| (funext a; apply Fin.ext; match a with | ⟨0, _⟩ => rfl | ⟨1, _⟩ => rfl))
macro "ixeq1" : tactic => `(tactic| (funext a; apply Fin.ext; match a with | ⟨0, _⟩ => rfl))

variable (x0 : Mat 4096 1024) (x1 : Mat 1024 1024) (x2 : Vc 1024) (x3 : Mat 1024 1024) (x4 : Vc 1024)
  (x5 : Mat 1024 1024) (x6 : Vc 1024) (x7 : Mat 1024 2048) (x8 : Vc 1024) (x9 : Mat 2048 2048) (x10 : Vc 2048)

/-! ## The three linear layers -/

theorem lin_q (r : Fin 4096) (j : Fin 1024) : val_main_v4 (F := Ideal) x0 x1 x2 (ix2 r j) = lin x0 x1 x2 r j := by
  rw [val_main_v4_apply, val_main_v1_apply, val_main_v3_apply, val_main_v2_apply]
  unfold lin
  refine congrArg₂ (· + ·) (Finset.sum_congr rfl fun k _ => ?_) (congrArg x2 (by ixeq1))
  rw [val_main_v0_apply]
  exact congrArg₂ (· * ·) (congrArg x0 (by ixeq2)) (congrArg x1 (by ixeq2))
theorem lin_k (r : Fin 4096) (j : Fin 1024) : val_main_v9 (F := Ideal) x0 x3 x4 (ix2 r j) = lin x0 x3 x4 r j := by
  rw [val_main_v9_apply, val_main_v6_apply, val_main_v8_apply, val_main_v7_apply]
  unfold lin
  refine congrArg₂ (· + ·) (Finset.sum_congr rfl fun k _ => ?_) (congrArg x4 (by ixeq1))
  rw [val_main_v5_apply]
  exact congrArg₂ (· * ·) (congrArg x0 (by ixeq2)) (congrArg x3 (by ixeq2))
theorem lin_v (r : Fin 4096) (j : Fin 1024) : val_main_v14 (F := Ideal) x0 x5 x6 (ix2 r j) = lin x0 x5 x6 r j := by
  rw [val_main_v14_apply, val_main_v11_apply, val_main_v13_apply, val_main_v12_apply]
  unfold lin
  refine congrArg₂ (· + ·) (Finset.sum_congr rfl fun k _ => ?_) (congrArg x6 (by ixeq1))
  rw [val_main_v10_apply]
  exact congrArg₂ (· * ·) (congrArg x0 (by ixeq2)) (congrArg x5 (by ixeq2))

/-! ## Scores, row maxima, exponentials, row sums -/

/-- The scores of row r: this row of Q against every row of K, over 32. -/
abbrev sRow (r : Fin 4096) : Fin 4096 → EReal := score (lin x0 x1 x2 r) (lin x0 x3 x4)

theorem score_ref (r n : Fin 4096) : val_main_v18 (F := Ideal) x0 x1 x2 x3 x4 (ix2 r n) = sRow x0 x1 x2 x3 x4 r n := by
  rw [val_main_v18_apply, val_main_v16_apply, val_main_v17_apply, val_main_cst_apply]
  unfold sRow score
  rw [Ideal.hostDivf_def, Ideal.ofBits_def, Cert.AttnConsts.ofBits_32, Ideal.div_coe (by norm_num : (32 : ℝ) ≠ 0)]
  refine congrArg (· * _) (Finset.sum_congr rfl fun k _ => ?_)
  rw [val_main_v15_apply]
  refine congrArg₂ (· * ·) ?_ ?_
  · rw [show lidx_main_v16 (ix2 r n) k = ix2 r k from by ixeq2]; exact lin_q x0 x1 x2 r k
  · rw [show idx_main_v15 (ridx_main_v16 (ix2 r n) k) = ix2 n k from by ixeq2]; exact lin_k x0 x3 x4 n k

theorem rowmax_ref (r : Fin 4096) : val_main_v21 (F := Ideal) x0 x1 x2 x3 x4 (ix1 r) = rowMax (sRow x0 x1 x2 x3 x4 r) := by
  have hR : S4096x4096.Reduces [(1 : Fin 2)] S4096 := by decide
  have hfun : (val_main_v18 (F := Ideal) x0 x1 x2 x3 x4 ∘ hR.lift (ix1 r)) = fun n : Fin 4096 => sRow x0 x1 x2 x3 x4 r n :=
    funext fun n => by
      show val_main_v18 (F := Ideal) x0 x1 x2 x3 x4 (hR.lift (ix1 r) n) = _
      rw [lift_row hR r n]; exact score_ref x0 x1 x2 x3 x4 r n
  rw [val_main_v21_apply, val_main_v20_apply, val_main_cst_1_apply]
  unfold val_main_v19 rowMax
  rw [Host.reduce_eq_fold_single FloatOps.maximumf _ _ reducesTo_S4096x4096_S4096_d1 hR h_S_ (ix1 r), hfun, val_main_cst_0_apply]
  rw [Ideal.ofBits_def, Cert.AttnConsts.ofBits_neg_inf]
  exact max_eq_right bot_le

theorem pexp_ref (r n : Fin 4096) : val_main_v25 (F := Ideal) x0 x1 x2 x3 x4 (ix2 r n) = pexp (sRow x0 x1 x2 x3 x4 r) n := by
  rw [val_main_v25_apply, val_main_v24_apply, val_main_v23_apply, val_main_v22_apply,
    show idx_main_v22 (idx_main_v23 (ix2 r n)) = ix1 r from by ixeq1, rowmax_ref, score_ref]
  rfl

theorem rowsum_ref (r : Fin 4096) : val_main_v26 (F := Ideal) x0 x1 x2 x3 x4 (ix1 r) = rowSum (sRow x0 x1 x2 x3 x4 r) := by
  rw [val_main_v26_apply, val_main_cst_2_apply, Ideal.ofBits_def, Cert.AttnConsts.ofBits_zero, zero_add]
  unfold rowSum
  exact Finset.sum_congr rfl fun n _ => by
    rw [show idx_main_v26 (ix1 r) n = ix2 r n from by ixeq2]; exact pexp_ref x0 x1 x2 x3 x4 r n

theorem weight_ref (r n : Fin 4096) : val_main_v29 (F := Ideal) x0 x1 x2 x3 x4 (ix2 r n)
    = Ideal.div (pexp (sRow x0 x1 x2 x3 x4 r) n) (rowSum (sRow x0 x1 x2 x3 x4 r)) := by
  rw [val_main_v29_apply, val_main_v28_apply, val_main_v27_apply,
    show idx_main_v27 (idx_main_v28 (ix2 r n)) = ix1 r from by ixeq1, rowsum_ref, pexp_ref]
  rfl

/-- The reference's attended entry: the normalized weights against column k of V. -/
theorem attended_ref (r : Fin 4096) (k : Fin 1024) : val_main_v30 (F := Ideal) x0 x1 x2 x3 x4 x5 x6 (ix2 r k)
    = ∑ n : Fin 4096, Ideal.div (pexp (sRow x0 x1 x2 x3 x4 r) n) (rowSum (sRow x0 x1 x2 x3 x4 r)) * lin x0 x5 x6 n k := by
  rw [val_main_v30_apply]
  exact Finset.sum_congr rfl fun n _ => congrArg₂ (· * ·)
    (by rw [show lidx_main_v30 (ix2 r k) n = ix2 r n from by ixeq2]; exact weight_ref x0 x1 x2 x3 x4 r n)
    (by rw [show ridx_main_v30 (ix2 r k) n = ix2 n k from by ixeq2]; exact lin_v x0 x5 x6 n k)

/-! ## The concatenation and the two combining layers -/

theorem cat_lo (r : Fin 4096) (k : Fin 1024) : val_main_v31 (F := Ideal) x0 x1 x2 x3 x4 x5 x6 (ix2 r (lo k)) = val_main_v30 (F := Ideal) x0 x1 x2 x3 x4 x5 x6 (ix2 r k) := by
  unfold val_main_v31
  exact concatenate_pair_apply_left (t := S4096x2048) (s₁ := S4096x1024) (s₂ := S4096x1024) 1 _ _ _ (ix2 r (lo k)) rfl (ix2 r k) (fun b => by match b with | ⟨0, _⟩ => rfl | ⟨1, _⟩ => rfl)
theorem cat_hi (r : Fin 4096) (k : Fin 1024) : val_main_v31 (F := Ideal) x0 x1 x2 x3 x4 x5 x6 (ix2 r (hi k)) = val_main_v4 (F := Ideal) x0 x1 x2 (ix2 r k) := by
  unfold val_main_v31
  exact concatenate_pair_apply_right (t := S4096x2048) (s₁ := S4096x1024) (s₂ := S4096x1024) 1 _ _ _ (ix2 r (hi k)) rfl rfl (ix2 r k)
    (fun b hb => by match b with | ⟨0, _⟩ => rfl | ⟨1, _⟩ => exact absurd rfl hb) (by show k.val + 1024 = 1024 + k.val; omega)

/-- The first combining layer at (r, j): [attended row, Q row] against row j of Wl, plus bl(j). -/
theorem comb_l (r : Fin 4096) (j : Fin 1024) : val_main_v36 (F := Ideal) x0 x1 x2 x3 x4 x5 x6 x7 x8 (ix2 r j)
    = comb (fun k => val_main_v30 (F := Ideal) x0 x1 x2 x3 x4 x5 x6 (ix2 r k)) (fun k => val_main_v4 (F := Ideal) x0 x1 x2 (ix2 r k))
        (fun e => x7 (ix2 j e)) (x8 (ix1 j)) := by
  rw [val_main_v36_apply, val_main_v33_apply, val_main_v35_apply, val_main_v34_apply]
  unfold comb
  rw [sum_lo_hi]
  refine congrArg₂ (· + ·) (congrArg₂ (· + ·) (Finset.sum_congr rfl fun k _ => ?_) (Finset.sum_congr rfl fun k _ => ?_)) (congrArg x8 (by ixeq1))
  · rw [val_main_v32_apply, show lidx_main_v33 (ix2 r j) (lo k) = ix2 r (lo k) from by ixeq2, cat_lo]
    exact congrArg (_ * ·) (congrArg x7 (by ixeq2))
  · rw [val_main_v32_apply, show lidx_main_v33 (ix2 r j) (hi k) = ix2 r (hi k) from by ixeq2, cat_hi]
    exact congrArg (_ * ·) (congrArg x7 (by ixeq2))

/-- The second combining layer at (r, j'), j' over 2048: against row j' of Wa, plus ba(j'). -/
theorem comb_a (r : Fin 4096) (j : Fin 2048) : val_main_v41 (F := Ideal) x0 x1 x2 x3 x4 x5 x6 x9 x10 (ix2 r j)
    = comb (fun k => val_main_v30 (F := Ideal) x0 x1 x2 x3 x4 x5 x6 (ix2 r k)) (fun k => val_main_v4 (F := Ideal) x0 x1 x2 (ix2 r k))
        (fun e => x9 (ix2 j e)) (x10 (ix1 j)) := by
  rw [val_main_v41_apply, val_main_v38_apply, val_main_v40_apply, val_main_v39_apply]
  unfold comb
  rw [sum_lo_hi]
  refine congrArg₂ (· + ·) (congrArg₂ (· + ·) (Finset.sum_congr rfl fun k _ => ?_) (Finset.sum_congr rfl fun k _ => ?_)) (congrArg x10 (by ixeq1))
  · rw [val_main_v37_apply, show lidx_main_v38 (ix2 r j) (lo k) = ix2 r (lo k) from by ixeq2, cat_lo]
    exact congrArg (_ * ·) (congrArg x9 (by ixeq2))
  · rw [val_main_v37_apply, show lidx_main_v38 (ix2 r j) (hi k) = ix2 r (hi k) from by ixeq2, cat_hi]
    exact congrArg (_ * ·) (congrArg x9 (by ixeq2))

/-- The result at (r, j): x1 · (a · logistic b), a and b the lower and upper halves of the second layer's output. -/
theorem gate_ref (r : Fin 4096) (j : Fin 1024) : val_main_v51 (F := Ideal) x0 x1 x2 x3 x4 x5 x6 x7 x8 x9 x10 (ix2 r j)
    = gate (val_main_v36 (F := Ideal) x0 x1 x2 x3 x4 x5 x6 x7 x8 (ix2 r j)) (val_main_v41 (F := Ideal) x0 x1 x2 x3 x4 x5 x6 x9 x10 (ix2 r (lo j)))
        (val_main_v41 (F := Ideal) x0 x1 x2 x3 x4 x5 x6 x9 x10 (ix2 r (hi j))) := by
  rw [val_main_v51_apply, val_main_v50_apply, val_main_v42_apply, val_main_v49_apply, val_main_v48_apply, val_main_cst_4_apply,
    val_main_v47_apply, val_main_v46_apply, val_main_cst_3_apply, val_main_v45_apply, val_main_v44_apply, val_main_v43_apply,
    show idx_main_v42 (ix2 r j) = ix2 r (lo j) from by ixeq2, show idx_main_v43 (ix2 r j) = ix2 r (hi j) from by ixeq2]
  unfold gate Ideal.logistic
  simp only [Ideal.mulf_def, Ideal.hostDivf_def, Ideal.addf_def, Ideal.hostUnary_exp_def, Ideal.hostNegf_def, Ideal.negf_def,
    Ideal.ofBits_def, Cert.AttnConsts.ofBits_one]

/-! ## The reference computes the specified function -/

/-- With every entry of the input, the three projection weights and their biases a real number, the reference's result is
    the specified function of the eleven arguments. -/
theorem ref_value (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) (h6 : ∀ i, IsReal (x6 i)) :
    val_main_v51 (F := Ideal) x0 x1 x2 x3 x4 x5 x6 x7 x8 x9 x10 = out x0 x1 x2 x3 x4 x5 x6 x7 x8 x9 x10 := by
  funext i
  obtain ⟨r, j, rfl⟩ : ∃ (r : Fin 4096) (j : Fin 1024), i = ix2 r j := ⟨i 0, i 1, eq_ix2 i⟩
  have hs : ∀ n, IsReal (sRow x0 x1 x2 x3 x4 r n) := fun n =>
    score_real _ _ (fun k => lin_real x0 x1 x2 h0 h1 h2 r k) (fun n k => lin_real x0 x3 x4 h0 h3 h4 n k) n
  have ha : (fun k => val_main_v30 (F := Ideal) x0 x1 x2 x3 x4 x5 x6 (ix2 r k)) = attend (sRow x0 x1 x2 x3 x4 r) (lin x0 x5 x6) :=
    funext fun k => (attended_ref x0 x1 x2 x3 x4 x5 x6 r k).trans
      (attend_ref _ _ hs (fun n k => lin_real x0 x5 x6 h0 h5 h6 n k) k)
  have hq : (fun k => val_main_v4 (F := Ideal) x0 x1 x2 (ix2 r k)) = lin x0 x1 x2 r := funext fun k => lin_q x0 x1 x2 r k
  rw [gate_ref, comb_l, comb_a, comb_a, ha, hq]
  rfl

end Cert.ReferenceIdeal.RefVal

end
-- ==== Proof.Finite.lean ====
/-
  From the precondition to real numbers. The precondition says of each float input that every entry's absolute value is
  below +inf; on the extended reals an entry whose absolute value max(x, -x) is below the top element is neither
  infinity, that is, a real number. The printed predicate is a chain of eleven `jnp.all` results joined by `and`; the
  first seven conjuncts (the input, the three projection weights and their biases) are the ones the algebra needs.
-/
import proofs.«169114_j74363063763252_2_alg».proof.Pre_finite_inputs
import proofs.«169114_j74363063763252_2_alg».proof.Proof.LibRealClosed
import Idealize.ShloMosaic.Lib.ReduceAll
import Idealize.ShloMosaic.Lib.Pipeline.Value
import Idealize.ShloMosaic.Lib.ValueIdx

noncomputable section

namespace Cert.AttnFinite

open Idealize.ShloMosaic Idealize.ShloMosaic.ValueIdx Cert.LibRealClosed Cert.Pre_finite_inputs

/-- The pattern of +inf denotes the top element. -/
theorem ofBits_pos_inf : Ideal.ofBits .f32 0x7F800000#32 = ⊤ := by
  simp [Ideal.ofBits, Ideal.ieee]

instance : Subsingleton S_.Idx := ⟨fun a b => funext fun d => d.elim0⟩

theorem ofBool_eq_one (b : Bool) : BitVec.ofBool b = 1#1 ↔ b = true := by cases b <;> decide

/-- One `jnp.all(|x| < inf)` that came out true makes every entry of `x` a real number. -/
theorem allReal_of_all {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) : AllReal x := by
  intro i
  have h := Host.reduce_andi_all _ _ hr hu ix0 e i
  have hB : broadcastInDim s ![] hb (constant (F := Ideal) S_ .f32 0x7F800000#32) i = ⊤ :=
    (broadcastInDim_apply _ hb _ i ix0 (fun a => a.elim0)).trans ofBits_pos_inf
  have h2 : BitVec.ofBool (decide (max (x i) (-(x i)) < broadcastInDim s ![] hb (constant (F := Ideal) S_ .f32 0x7F800000#32) i)) = 1#1 := h
  rw [hB, ofBool_eq_one, decide_eq_true_eq] at h2
  exact isReal_of_abs_lt_top h2

variable [Cert.Pre_finite_inputs.Facts]

/-- The precondition's first seven conjuncts, decoded. -/
theorem reals_of_pre (x0 : FVec Ideal S4096x1024 .f32) (x1 : FVec Ideal S1024x1024 .f32) (x2 : FVec Ideal S1024 .f32)
    (x3 : FVec Ideal S1024x1024 .f32) (x4 : FVec Ideal S1024 .f32) (x5 : FVec Ideal S1024x1024 .f32) (x6 : FVec Ideal S1024 .f32)
    (x7 : FVec Ideal S1024x2048 .f32) (x8 : FVec Ideal S1024 .f32) (x9 : FVec Ideal S2048x2048 .f32) (x10 : FVec Ideal S2048 .f32)
    (h : Cert.Pre_finite_inputs.fn (F := Ideal) x0 x1 x2 x3 x4 x5 x6 x7 x8 x9 x10 = fun _ => 1#1) :
    AllReal x0 ∧ AllReal x1 ∧ AllReal x2 ∧ AllReal x3 ∧ AllReal x4 ∧ AllReal x5 ∧ AllReal x6 := by
  have e := congrFun h ix0
  unfold Cert.Pre_finite_inputs.fn Cert.Pre_finite_inputs.fn_part1 Cert.Pre_finite_inputs.fn_part2 Cert.Pre_finite_inputs.fn_part3 at e
  dsimp only at e
  obtain ⟨e, -⟩ := IntOp.andi_eq_one.mp e
  obtain ⟨e, -⟩ := IntOp.andi_eq_one.mp e
  obtain ⟨e, -⟩ := IntOp.andi_eq_one.mp e
  obtain ⟨e, -⟩ := IntOp.andi_eq_one.mp e
  obtain ⟨e, e6⟩ := IntOp.andi_eq_one.mp e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨allReal_of_all x0 _ _ _ e0, allReal_of_all x1 _ _ _ e1, allReal_of_all x2 _ _ _ e2, allReal_of_all x3 _ _ _ e3,
    allReal_of_all x4 _ _ _ e4, allReal_of_all x5 _ _ _ e5, allReal_of_all x6 _ _ _ e6⟩

end Cert.AttnFinite

end
-- ==== Proof.lean ====
/-
  The certificate of the attention block: a fused Q/K/V projection kernel and a fused attention + combine + gate kernel
  against the plain array reference, equal on the extended reals whenever the inputs are finite.

  Both programs compute, at row r and column j, x1 · (a · logistic b), where x1, a, b are linear layers of the
  concatenation [attended row, Q row], the attended row is softmax(Q_r·Kᵀ/32)·V, and Q, K, V are linear layers of the
  input. The kernel stacks the weights, splits the work into row blocks, scales by the literal 1/32, and normalizes the
  exp-weighted sum of the value rows once; the reference divides by 32 and normalizes each weight first. With real
  entries the two normalizations are the same real number, and the rest is regrouping of finite sums.

  The three frames: each kernel program is run as host operations, first pallas_call, host operations, second
  pallas_call, every buffer's contents followed from the launch memory; the reference is its list of host operations.
  No operation was rewritten by the idealization, so the kernel's idealization is its own text.
-/
import proofs.«169114_j74363063763252_2_alg».proof.Defs
import proofs.«169114_j74363063763252_2_alg».proof.Proof.Gen.Kernel
import proofs.«169114_j74363063763252_2_alg».proof.Proof.Gen.KernelIdeal
import proofs.«169114_j74363063763252_2_alg».proof.Proof.Gen.ReferenceIdeal
import proofs.«169114_j74363063763252_2_alg».proof.Proof.Gen.Pre_finite_inputs
import proofs.«169114_j74363063763252_2_alg».proof.Proof.KB.Run
import proofs.«169114_j74363063763252_2_alg».proof.Proof.KI.Run
import proofs.«169114_j74363063763252_2_alg».proof.Proof.KVal.Final
import proofs.«169114_j74363063763252_2_alg».proof.Proof.RefRun
import proofs.«169114_j74363063763252_2_alg».proof.Proof.RefRead
import proofs.«169114_j74363063763252_2_alg».proof.Proof.RefVal
import proofs.«169114_j74363063763252_2_alg».proof.Proof.Finite
import Idealize.ShloMosaic.Adequacy
import Idealize.ShloMosaic.Init

noncomputable section

namespace Cert.Proof

open Idealize.ShloMosaic Idealize.SL.Sem

/-- Each kernel program terminates, nothing faulting, with its arguments as launched. -/
theorem frame_k : Cert.frame_Kernel := fun m ρ _ => Cert.Kernel.Fr.frame m ρ
theorem frame_ki : Cert.frame_KernelIdeal := fun m ρ _ => Cert.KernelIdeal.Fr.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs the kernel's result array and the reference's hold the same function of the arguments. -/
theorem algebraic : Cert.algebraic_KernelIdeal_ReferenceIdeal := by
  intro m ρ m' ρ' hpre hagree
  refine ⟨fun c => Cert.Attn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.KVal.kernel_value m ρ c), (h c).2⟩) (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := Cert.AttnFinite.reals_of_pre _ _ _ _ _ _ _ _ _ _ _ (hpre c)
    obtain ⟨a0, a1, a2, a3, a4, a5, a6, a7, a8, a9, a10⟩ := hagree c
    rw [Cert.ReferenceIdeal.Read.val_main_v51_eq, a0, a1, a2, a3, a4, a5, a6, a7, a8, a9, a10]
    exact Cert.ReferenceIdeal.RefVal.ref_value _ _ _ _ _ _ _ _ _ _ _ h0 h1 h2 h3 h4 h5 h6

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
